-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x3072 : Shape := ⟨2, ![1024, 3072]⟩
abbrev S1x1024 : Shape := ⟨2, ![1, 1024]⟩
abbrev S1x3072 : Shape := ⟨2, ![1, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 23
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x3072, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x3072, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  shapeCasts_S1024_S1x1024 : S1024.ShapeCasts S1x1024
  concatenates_S1x1024_S1x1024_S1x1024_S1x3072_d1 : Shape.Concatenates [S1x1024, S1x1024, S1x1024] S1x3072 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  dot_S512x1024_S1024x3072_S512x3072_1_0_0_1_n_n_wf : DotDims.WF S512x1024 S1024x3072 S512x3072 [1] [0] [0] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v11) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S1024x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S_, .f32⟩
  | .hbm, ⟨24, _⟩ => ⟨S1024x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x1024_S4096_d1 : S4096x1024.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.BitsRegion0.lean ====
import proofs.«120050_j80977313399765_2_alg».proof.Proof.Gen.Kernel.Launch
import proofs.«120050_j80977313399765_2_alg».proof.Proof.Gen.Kernel.Skeleton
import proofs.«120050_j80977313399765_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused projection kernel, at a parameter of region-entry contents

The first TensorCore region of the program multiplies a block of 512 rows of the activations by the fused
1024 x 3072 weight, adds the bias row, and stores the three 1024-column thirds of the result, rounded to bf16,
into three output windows. The body reads its three input windows' staging buffers whole and overwrites each
output window's staging buffer whole, so what it leaves in an output buffer is a closed function of the three
input blocks at the point. This module states, for ANY contents `V` of the TensorCore's buffers when the region
is entered: each window's block at a point, what an input window's buffer holds at a point (its block, fetched
there or not), what the body leaves in each output buffer, the body's triple, the pipeline's proof data, and the
body obligation at every point.
-/

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block, fetched at every point): its current staging buffer holds its
    block at every point, for ANY proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the fused weight, one block, fetched at the first point only): its staging buffer holds its
    block at every point, fetched there or not — where it is not fetched its block index has not moved and the
    body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the fused bias row, one block, fetched at the first point only): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 buffer as a rectangle: what the body loads of the activations' block and what it
    stores into each output buffer. -/
abbrev r0_0 : Rect S512x1024 := Rect.unit (s := S512x1024) ![0, 0] S512x1024.size inb_S512x1024_S512x1024_0_0
/-- The whole 1024 x 3072 weight buffer as a rectangle. -/
abbrev r0_1 : Rect S1024x3072 := Rect.unit (s := S1024x3072) ![0, 0] S1024x3072.size inb_S1024x3072_S1024x3072_0_0
/-- The whole 1 x 3072 bias buffer as a rectangle. -/
abbrev r0_2 : Rect S1x3072 := Rect.unit (s := S1x3072) ![0, 0] S1x3072.size inb_S1x3072_S1x3072_0_0

/-! ## What the body leaves in each output window's buffer -/

/-- Window 3's staging buffer after the body, from the input windows' blocks: its one store as a piece — columns
    0..1023 of `x0 · x1 + x2`, rounded to bf16. -/
def out0_3 (x0 : Vec F S512x1024 .bf16) (x1 : Vec F S1024x3072 .bf16) (x2 : Vec F S1x3072 .f32) : Vec F S512x1024 .bf16 :=
  View.canon [⟨r0_0, k0_pay2 (View.ld x0 r0_0) (View.ld x1 r0_1) (View.ld x2 r0_2)⟩]
/-- Window 4's staging buffer after the body: columns 1024..2047 of `x0 · x1 + x2`, rounded to bf16. -/
def out0_4 (x0 : Vec F S512x1024 .bf16) (x1 : Vec F S1024x3072 .bf16) (x2 : Vec F S1x3072 .f32) : Vec F S512x1024 .bf16 :=
  View.canon [⟨r0_0, k0_pay3 (View.ld x0 r0_0) (View.ld x1 r0_1) (View.ld x2 r0_2)⟩]
/-- Window 5's staging buffer after the body: columns 2048..3071 of `x0 · x1 + x2`, rounded to bf16. -/
def out0_5 (x0 : Vec F S512x1024 .bf16) (x1 : Vec F S1024x3072 .bf16) (x2 : Vec F S1x3072 .f32) : Vec F S512x1024 .bf16 :=
  View.canon [⟨r0_0, k0_pay4 (View.ld x0 r0_0) (View.ld x1 r0_1) (View.ld x2 r0_2)⟩]

/-- Window 3's one store tiles the buffer (checked by evaluation), so it covers it. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
/-- Window 4's one store covers the buffer. -/
theorem cover0_4 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
/-- Window 5's one store covers the buffer. -/
theorem cover0_5 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed
    function is its skeleton of loads and stores over named payloads. Each output buffer is loaded once before it is
    overwritten whole; the value loaded is not used, and the store's pieces cover the buffer, so what it held
    before does not matter. -/
theorem sound_kernel0 (c : Dev nD) (E : Set ℕ) (i : grid0.Coords) (arg1 : Memref sig .tc .vmem S512x1024 .bf16) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant
    holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Runs.lean ====
/- Region 1 (the second pallas_call, grid 8 x 4) at a PARAMETER `V` of region-entry contents: what the three
   whole-body runs of its kernel share — each window's block at a point, the input windows' staging contents, the
   body's two branch conditions in closed form over the grid, where the output window is idle, the staging and
   scratch memrefs, and the region invariant with the scratch as an owned memref. -/
import proofs.«120050_j80977313399765_2_alg».proof.Proof.Gen.Kernel.Launch
import proofs.«120050_j80977313399765_2_alg».proof.Proof.Gen.Kernel.Skeleton
import proofs.«120050_j80977313399765_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched
    only where the second grid coordinate is 0: elsewhere its block index has not moved), for any proof data whose
    array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (zero the accumulator), from the grid coordinates: the printed scalar
    chain on the second coordinate. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid's 32 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the softmax epilogue stored to the output). -/
abbrev cond1_1 (i : grid1.Coords) : Prop := k1_cond2 i = 1#1
/-- It holds at the points ≡ 3 (mod 4) — decided over the grid's 32 points. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- At the points of case A (first condition holds, second does not) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B (neither condition holds) output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C (only the second condition holds) output 3 is live: the case stores into it. -/
theorem liveAt1_3_C : ∀ t : Fin cfg1.N, ¬cond1_0 (grid1.coords t) → cond1_1 (grid1.coords t) → cfg1.idle 3 (grid1.coords t) = false := by decide +kernel

/-! ## The kernel body on any staging memrefs -/

/-- One staging buffer of output window 3, through which its contents are stated (the choice does not matter:
    `View.read_writes_of_cover`). -/
abbrev VO1_3 : View sig .tc .vmem S512x1024 .f32 := (Memref.whole cc1_stg3_0 : Memref sig .tc .vmem S512x1024 .f32).view
/-- Each window's current staging memref at point `t`, spelled as the pipeline passes it (`bodyAt1`), and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S512x1024 .f32 := Memref.whole cc1_scratch0
/-- The scratch accumulator the kernel carries between points, as a view: what it holds is stated through it. -/
abbrev VS1_0 : View sig .tc .vmem S512x1024 .f32 := scM1_0.view

/-- The region invariant with the scratch operand as a memref owned at some contents (`Gen.scopedRest1_eq`,
    `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.BitsRegion1RunA.lean ====
/- Region 1's kernel body run whole in CASE A (the second grid coordinate is 0: the accumulator is zeroed, then
   accumulated into; the output window is left alone): the pieces the run leaves in the scratch are its witness. -/
import proofs.«120050_j80977313399765_2_alg».proof.Proof.BitsRegion1Runs

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first) IN CASE A
    (first `scf.if` taken, second not: the points ≡ 0 mod 4), WITH the proof that on whole memrefs — the three
    inputs' at their contents, the idle output's at contents `xi3` handed back untouched, the scratch at anything —
    the body runs to the continuation holding the inputs' and the output's as they were and the scratch with its
    pieces `LS0` written. -/
noncomputable def kernelRun1_A (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.BitsRegion1RunB.lean ====
/- Region 1's kernel body run whole in CASE B (the second grid coordinate is 1 or 2: accumulate into the scratch
   the point before left; the output window is left alone): the pieces the run leaves in the scratch are its witness. -/
import proofs.«120050_j80977313399765_2_alg».proof.Proof.BitsRegion1RunA

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first) IN CASE B
    (neither `scf.if` taken: the points ≡ 1, 2 mod 4), WITH the proof that on whole memrefs — the three inputs' at
    their contents, the idle output's at contents `xi3` handed back untouched, the scratch at the contents `xs0` the
    point before left — the body runs to the continuation holding the inputs' and the output's as they were and the
    scratch with its pieces `LS0` written. -/
noncomputable def kernelRun1_B (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.BitsRegion1RunC.lean ====
/- Region 1's kernel body run whole in CASE C (the second grid coordinate is 3: accumulate into the scratch the point
   before left, then store the softmax of the scaled accumulator to the output window): the pieces the run leaves in
   the output's staging memref and in the scratch are its witness. -/
import proofs.«120050_j80977313399765_2_alg».proof.Proof.BitsRegion1RunB

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first) IN CASE C
    (first `scf.if` not taken, second taken: the points ≡ 3 mod 4), WITH the proof that on whole memrefs — the three
    inputs' at their contents, the output's at anything, the scratch at the contents `xs0` the point before left — the
    body runs to the continuation holding the inputs' as they were, the output's with its pieces `L3` written and the
    scratch with its pieces `LS0` written. -/
noncomputable def kernelRun1_C (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BitsRegion1.lean ====
/- Region 1 (the second pallas_call, grid 8 x 4) at a PARAMETER `V` of region-entry contents, its last module: what the
   output window and the carried scratch accumulator hold per case (covers, `out1_κ_3`, `sout1_κ_0`) and point by point
   (`outsAt1`), the region invariant with the scratch's contents named from the second point on (`PhiS1`), the proof data
   (`dat1`), and the body obligation with the invariant's two ends (`body_obligation1`, `hin1`, `hout1`). -/
import proofs.«120050_j80977313399765_2_alg».proof.Proof.BitsRegion1RunC

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 3 (the window is idle at its points and not written back there): no
    pieces — a placeholder (junk read back) that nothing consults, since at these points the window is neither
    written back nor read at the next point. -/
def out1_A_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) : Vec F S512x1024 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator, which the kernel carries between points, cover it: 2 pieces of
    the whole shape. -/
theorem scover1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) (y : S512x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S512x1024.size (by sl_kernel_rfl) y

/-- What case A leaves in the scratch accumulator: its pieces read back over junk. -/
def sout1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) : Vec F S512x1024 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into output 3 (the window is idle at its points and not written back there): no
    pieces — a placeholder (junk read back) that nothing consults, since at these points the window is neither
    written back nor read at the next point. -/
def out1_B_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) : Vec F S512x1024 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch accumulator, which the kernel carries between points, cover it: 1 piece of
    the whole shape. -/
theorem scover1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) (y : S512x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S512x1024.size (by sl_kernel_rfl) y

/-- What case B leaves in the scratch accumulator: its pieces read back over junk. -/
def sout1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) : Vec F S512x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for output 3 tile its block (one store of the whole block), so they cover it. -/
theorem cover1_C_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) (y : S512x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S512x1024.size (by sl_kernel_rfl) y

/-- What case C leaves in output 3's staging buffer: its pieces read back over junk. -/
def out1_C_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) : Vec F S512x1024 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch accumulator, which the kernel carries between points, cover it: 1 piece of
    the whole shape. -/
theorem scover1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) (y : S512x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S512x1024.size (by sl_kernel_rfl) y

/-- What case C leaves in the scratch accumulator: its pieces read back over junk. -/
def sout1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) : Vec F S512x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output and the scratch hold after each point -/

/-- THE ACCUMULATION. What output 3's staging buffer and the scratch accumulator hold after the body at position `n` (a pair:
    the output, then the scratch): the case the closed forms select at `n`, run at the point's memrefs and input blocks, the
    scratch it reads at what this leaves at `n - 1`. An assignment of the conditions no point meets is no case. -/
def outsAt1 (c : Dev nD) : (n : ℕ) → n < cfg1.N → Vec F S512x1024 .f32 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by have hN : n + 1 < 32 := lt_of_lt_of_eq hn (show cfg1.N = 32 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the scratch the kernel CARRIES between points: before the first point the
    class's (`Pipeline.ΦA`: the scratch at anything); afterwards the scoped rest with the scratch at what the point before
    left in it (`outsAt1`'s second component), the other scoped buffers at anything, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, by `dsimp`: `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is
    in; so that case's run applies; the invariant hands the body the carried scratch at what the point before left
    (`PhiS1_pos`; at anything at the first point, `PhiS1_zero`), the other scoped buffers and the generator register at some
    state, and takes the scratch back at this point's contents (`PhiS1_succ`, its pieces covering it); the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.BitsRun.lean ====
import proofs.«120050_j80977313399765_2_alg».proof.Proof.BitsRegion0
import proofs.«120050_j80977313399765_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: the host stretch, the projection region, the attention region

@main is twelve host operations (transposes, roundings to bf16, two concatenations and three reshapes) followed by
two TensorCore regions and nothing after them. This module follows every unscoped buffer of a core through the
three segments: after the host stretch the buffers hold the fold of the operations over the launch memory; a region
leaves its windows' arrays at what its pipeline's write-backs leave and every other buffer as it found it. Each
region is stated as a segment over the thread state "every unscoped buffer at the boundary's contents, the generator
register at some state, nothing owed", from its proof data and body obligation; the second region's invariant
carries the accumulator scratch between grid points, so it enters and leaves the class invariant through the two
lemmas its module proves. The launch theorem over the three segments then gives: every weakly fair execution
terminates, nothing faults, and the final memory holds every unscoped buffer at the last boundary's contents — from
which the argument arrays are read back as launched, and the result array as the second region's output window.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a stretch of host operations, then the two kernel regions

## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and none is a window's array, so the fold at
    an argument's buffer walks back to the launch memory -/

/-- No operation of the host stretch writes the buffer in the goal: each operation's written set is the singleton of
    its result, and the results are other references. -/
local macro "host_unwritten" : tactic => `(tactic| (
  simp only [hostOps0, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-- A buffer that is no window's array of either region and that no host operation writes ends as launched: the fold
    walks back through region 1, region 0 and the host stretch to the launch memory. -/
theorem W3_of_untouched (c : Dev nD) (b : Ref sig .tc) (h1 : ∀ w, Pipeline.arrRef spec1 w ≠ b) (h0 : ∀ w, Pipeline.arrRef spec0 w ≠ b)
    (hw : ∀ op ∈ (hostOps0 : List (HloOp τ sig (Elt F))), (Proc.devRef .tc b : DevRef τ sig) ∉ op.writes) :
    W3 m ρ c (Proc.devRef .tc b) = m ((c : Thread nD τ).loc b) :=
  calc W3 m ρ c (Proc.devRef .tc b)
    _ = W2 m ρ c (Proc.devRef .tc b) := W3_of_ne m ρ c b h1
    _ = W1 m ρ c (Proc.devRef .tc b) := W2_of_ne m ρ c b h0
    _ = W0 m ρ c (Proc.devRef .tc b) := StableHlo.after_of_forall_not_mem (b := Proc.devRef .tc b) _ _ hw
    _ = m ((c : Thread nD τ).loc b) := rfl

/-- Each argument array is the array of no window and the result of no host operation: it ends as launched. -/
theorem W3_main_arg0 (c : Dev nD) : W3 m ρ c (Proc.devRef .tc main_arg0) = m ((c : Thread nD τ).loc main_arg0) :=
  W3_of_untouched m ρ c main_arg0 (by decide) (by decide) (List.forall_iff_forall_mem.mp (by host_unwritten))
theorem W3_main_arg1 (c : Dev nD) : W3 m ρ c (Proc.devRef .tc main_arg1) = m ((c : Thread nD τ).loc main_arg1) :=
  W3_of_untouched m ρ c main_arg1 (by decide) (by decide) (List.forall_iff_forall_mem.mp (by host_unwritten))
theorem W3_main_arg2 (c : Dev nD) : W3 m ρ c (Proc.devRef .tc main_arg2) = m ((c : Thread nD τ).loc main_arg2) :=
  W3_of_untouched m ρ c main_arg2 (by decide) (by decide) (List.forall_iff_forall_mem.mp (by host_unwritten))
theorem W3_main_arg3 (c : Dev nD) : W3 m ρ c (Proc.devRef .tc main_arg3) = m ((c : Thread nD τ).loc main_arg3) :=
  W3_of_untouched m ρ c main_arg3 (by decide) (by decide) (List.forall_iff_forall_mem.mp (by host_unwritten))
theorem W3_main_arg4 (c : Dev nD) : W3 m ρ c (Proc.devRef .tc main_arg4) = m ((c : Thread nD τ).loc main_arg4) :=
  W3_of_untouched m ρ c main_arg4 (by decide) (by decide) (List.forall_iff_forall_mem.mp (by host_unwritten))
theorem W3_main_arg5 (c : Dev nD) : W3 m ρ c (Proc.devRef .tc main_arg5) = m ((c : Thread nD τ).loc main_arg5) :=
  W3_of_untouched m ρ c main_arg5 (by decide) (by decide) (List.forall_iff_forall_mem.mp (by host_unwritten))
theorem W3_main_arg6 (c : Dev nD) : W3 m ρ c (Proc.devRef .tc main_arg6) = m ((c : Thread nD τ).loc main_arg6) :=
  W3_of_untouched m ρ c main_arg6 (by decide) (by decide) (List.forall_iff_forall_mem.mp (by host_unwritten))

/-- The result array is region 1's output window: it ends at what that pipeline's write-backs leave. -/
theorem W3_main_v13 (c : Dev nD) : W3 m ρ c (Proc.devRef .tc main_v13) = (dat1 (V2 m ρ) c).arrAt 3 cfg1.N :=
  W3_arr m ρ c 3

/-- Region 0's three output arrays, as region 1 finds them: what region 0's write-backs leave. -/
theorem V2_main_v12_0 (c : Dev nD) : V2 m ρ c main_v12_0 = (dat0 (V1 m ρ) c).arrAt 3 cfg0.N := W2_arr m ρ c 3
theorem V2_main_v12_1 (c : Dev nD) : V2 m ρ c main_v12_1 = (dat0 (V1 m ρ) c).arrAt 4 cfg0.N := W2_arr m ρ c 4
theorem V2_main_v12_2 (c : Dev nD) : V2 m ρ c main_v12_2 = (dat0 (V1 m ρ) c).arrAt 5 cfg0.N := W2_arr m ρ c 5

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays split out of
    the unscoped buffers and are put back at the exit contents; the generator register goes into the invariant and
    comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads
    at the end). Its invariant carries the accumulator between points: it starts from the scoped rest and the
    generator register (`hin1`) and gives them back after the last point (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer of every core at the last boundary's contents
    `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- THE RUN'S VALUE: the result array ends at what region 1's write-backs leave, and every argument array as
    launched. -/
theorem run_value : θ_run defs (onTc (τ := τ) (main (F := F))) ⟨m, fun _ => 0, ρ⟩ (fun r => ∀ c : Dev nD,
      r.2.mem ((c.tc : Thread nD τ).loc main_v13) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (W3_main_v13 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.Kernel.Hand

end
-- ==== Proof.IdealRegion0.lean ====
import proofs.«120050_j80977313399765_2_alg».proof.Proof.Gen.KernelIdeal.Launch
import proofs.«120050_j80977313399765_2_alg».proof.Proof.Gen.KernelIdeal.Skeleton
import proofs.«120050_j80977313399765_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused projection kernel, at a parameter of region-entry contents

The first TensorCore region of the program multiplies a block of 512 rows of the activations by the fused
1024 x 3072 weight, adds the bias row, and stores the three 1024-column thirds of the result, rounded to bf16,
into three output windows. The body reads its three input windows' staging buffers whole and overwrites each
output window's staging buffer whole, so what it leaves in an output buffer is a closed function of the three
input blocks at the point. This module states, for ANY contents `V` of the TensorCore's buffers when the region
is entered: each window's block at a point, what an input window's buffer holds at a point (its block, fetched
there or not), what the body leaves in each output buffer, the body's triple, the pipeline's proof data, and the
body obligation at every point.
-/

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block, fetched at every point): its current staging buffer holds its
    block at every point, for ANY proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the fused weight, one block, fetched at the first point only): its staging buffer holds its
    block at every point, fetched there or not — where it is not fetched its block index has not moved and the
    body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the fused bias row, one block, fetched at the first point only): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 buffer as a rectangle: what the body loads of the activations' block and what it
    stores into each output buffer. -/
abbrev r0_0 : Rect S512x1024 := Rect.unit (s := S512x1024) ![0, 0] S512x1024.size inb_S512x1024_S512x1024_0_0
/-- The whole 1024 x 3072 weight buffer as a rectangle. -/
abbrev r0_1 : Rect S1024x3072 := Rect.unit (s := S1024x3072) ![0, 0] S1024x3072.size inb_S1024x3072_S1024x3072_0_0
/-- The whole 1 x 3072 bias buffer as a rectangle. -/
abbrev r0_2 : Rect S1x3072 := Rect.unit (s := S1x3072) ![0, 0] S1x3072.size inb_S1x3072_S1x3072_0_0

/-! ## What the body leaves in each output window's buffer -/

/-- Window 3's staging buffer after the body, from the input windows' blocks: its one store as a piece — columns
    0..1023 of `x0 · x1 + x2`, rounded to bf16. -/
def out0_3 (x0 : Vec F S512x1024 .bf16) (x1 : Vec F S1024x3072 .bf16) (x2 : Vec F S1x3072 .f32) : Vec F S512x1024 .bf16 :=
  View.canon [⟨r0_0, k0_pay2 (View.ld x0 r0_0) (View.ld x1 r0_1) (View.ld x2 r0_2)⟩]
/-- Window 4's staging buffer after the body: columns 1024..2047 of `x0 · x1 + x2`, rounded to bf16. -/
def out0_4 (x0 : Vec F S512x1024 .bf16) (x1 : Vec F S1024x3072 .bf16) (x2 : Vec F S1x3072 .f32) : Vec F S512x1024 .bf16 :=
  View.canon [⟨r0_0, k0_pay3 (View.ld x0 r0_0) (View.ld x1 r0_1) (View.ld x2 r0_2)⟩]
/-- Window 5's staging buffer after the body: columns 2048..3071 of `x0 · x1 + x2`, rounded to bf16. -/
def out0_5 (x0 : Vec F S512x1024 .bf16) (x1 : Vec F S1024x3072 .bf16) (x2 : Vec F S1x3072 .f32) : Vec F S512x1024 .bf16 :=
  View.canon [⟨r0_0, k0_pay4 (View.ld x0 r0_0) (View.ld x1 r0_1) (View.ld x2 r0_2)⟩]

/-- Window 3's one store tiles the buffer (checked by evaluation), so it covers it. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
/-- Window 4's one store covers the buffer. -/
theorem cover0_4 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
/-- Window 5's one store covers the buffer. -/
theorem cover0_5 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed
    function is its skeleton of loads and stores over named payloads. Each output buffer is loaded once before it is
    overwritten whole; the value loaded is not used, and the store's pieces cover the buffer, so what it held
    before does not matter. -/
theorem sound_kernel0 (c : Dev nD) (E : Set ℕ) (i : grid0.Coords) (arg1 : Memref sig .tc .vmem S512x1024 .bf16) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant
    holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1Runs.lean ====
/- Region 1 (the second pallas_call, grid 8 x 4) at a PARAMETER `V` of region-entry contents: what the three
   whole-body runs of its kernel share — each window's block at a point, the input windows' staging contents, the
   body's two branch conditions in closed form over the grid, where the output window is idle, the staging and
   scratch memrefs, and the region invariant with the scratch as an owned memref. -/
import proofs.«120050_j80977313399765_2_alg».proof.Proof.Gen.KernelIdeal.Launch
import proofs.«120050_j80977313399765_2_alg».proof.Proof.Gen.KernelIdeal.Skeleton
import proofs.«120050_j80977313399765_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched
    only where the second grid coordinate is 0: elsewhere its block index has not moved), for any proof data whose
    array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (zero the accumulator), from the grid coordinates: the printed scalar
    chain on the second coordinate. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid's 32 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the softmax epilogue stored to the output). -/
abbrev cond1_1 (i : grid1.Coords) : Prop := k1_cond2 i = 1#1
/-- It holds at the points ≡ 3 (mod 4) — decided over the grid's 32 points. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- At the points of case A (first condition holds, second does not) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B (neither condition holds) output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C (only the second condition holds) output 3 is live: the case stores into it. -/
theorem liveAt1_3_C : ∀ t : Fin cfg1.N, ¬cond1_0 (grid1.coords t) → cond1_1 (grid1.coords t) → cfg1.idle 3 (grid1.coords t) = false := by decide +kernel

/-! ## The kernel body on any staging memrefs -/

/-- One staging buffer of output window 3, through which its contents are stated (the choice does not matter:
    `View.read_writes_of_cover`). -/
abbrev VO1_3 : View sig .tc .vmem S512x1024 .f32 := (Memref.whole cc1_stg3_0 : Memref sig .tc .vmem S512x1024 .f32).view
/-- Each window's current staging memref at point `t`, spelled as the pipeline passes it (`bodyAt1`), and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S512x1024 .f32 := Memref.whole cc1_scratch0
/-- The scratch accumulator the kernel carries between points, as a view: what it holds is stated through it. -/
abbrev VS1_0 : View sig .tc .vmem S512x1024 .f32 := scM1_0.view

/-- The region invariant with the scratch operand as a memref owned at some contents (`Gen.scopedRest1_eq`,
    `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.IdealRegion1RunA.lean ====
/- Region 1's kernel body run whole in CASE A (the second grid coordinate is 0: the accumulator is zeroed, then
   accumulated into; the output window is left alone): the pieces the run leaves in the scratch are its witness. -/
import proofs.«120050_j80977313399765_2_alg».proof.Proof.IdealRegion1Runs

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first) IN CASE A
    (first `scf.if` taken, second not: the points ≡ 0 mod 4), WITH the proof that on whole memrefs — the three
    inputs' at their contents, the idle output's at contents `xi3` handed back untouched, the scratch at anything —
    the body runs to the continuation holding the inputs' and the output's as they were and the scratch with its
    pieces `LS0` written. -/
noncomputable def kernelRun1_A (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.IdealRegion1RunB.lean ====
/- Region 1's kernel body run whole in CASE B (the second grid coordinate is 1 or 2: accumulate into the scratch
   the point before left; the output window is left alone): the pieces the run leaves in the scratch are its witness. -/
import proofs.«120050_j80977313399765_2_alg».proof.Proof.IdealRegion1RunA

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first) IN CASE B
    (neither `scf.if` taken: the points ≡ 1, 2 mod 4), WITH the proof that on whole memrefs — the three inputs' at
    their contents, the idle output's at contents `xi3` handed back untouched, the scratch at the contents `xs0` the
    point before left — the body runs to the continuation holding the inputs' and the output's as they were and the
    scratch with its pieces `LS0` written. -/
noncomputable def kernelRun1_B (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.IdealRegion1RunC.lean ====
/- Region 1's kernel body run whole in CASE C (the second grid coordinate is 3: accumulate into the scratch the point
   before left, then store the softmax of the scaled accumulator to the output window): the pieces the run leaves in
   the output's staging memref and in the scratch are its witness. -/
import proofs.«120050_j80977313399765_2_alg».proof.Proof.IdealRegion1RunB

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first) IN CASE C
    (first `scf.if` not taken, second taken: the points ≡ 3 mod 4), WITH the proof that on whole memrefs — the three
    inputs' at their contents, the output's at anything, the scratch at the contents `xs0` the point before left — the
    body runs to the continuation holding the inputs' as they were, the output's with its pieces `L3` written and the
    scratch with its pieces `LS0` written. -/
noncomputable def kernelRun1_C (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.IdealRegion1.lean ====
/- Region 1 (the second pallas_call, grid 8 x 4) at a PARAMETER `V` of region-entry contents, its last module: what the
   output window and the carried scratch accumulator hold per case (covers, `out1_κ_3`, `sout1_κ_0`) and point by point
   (`outsAt1`), the region invariant with the scratch's contents named from the second point on (`PhiS1`), the proof data
   (`dat1`), and the body obligation with the invariant's two ends (`body_obligation1`, `hin1`, `hout1`). -/
import proofs.«120050_j80977313399765_2_alg».proof.Proof.IdealRegion1RunC

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 3 (the window is idle at its points and not written back there): no
    pieces — a placeholder (junk read back) that nothing consults, since at these points the window is neither
    written back nor read at the next point. -/
def out1_A_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) : Vec F S512x1024 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator, which the kernel carries between points, cover it: 2 pieces of
    the whole shape. -/
theorem scover1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) (y : S512x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S512x1024.size (by sl_kernel_rfl) y

/-- What case A leaves in the scratch accumulator: its pieces read back over junk. -/
def sout1_A_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .bf16) (x2 : Vec F S1024x1024 .bf16) : Vec F S512x1024 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into output 3 (the window is idle at its points and not written back there): no
    pieces — a placeholder (junk read back) that nothing consults, since at these points the window is neither
    written back nor read at the next point. -/
def out1_B_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) : Vec F S512x1024 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch accumulator, which the kernel carries between points, cover it: 1 piece of
    the whole shape. -/
theorem scover1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) (y : S512x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S512x1024.size (by sl_kernel_rfl) y

/-- What case B leaves in the scratch accumulator: its pieces read back over junk. -/
def sout1_B_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .bf16) (x2 : Vec F S1024x1024 .bf16) (xs0 : Vec F S512x1024 .f32) : Vec F S512x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for output 3 tile its block (one store of the whole block), so they cover it. -/
theorem cover1_C_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) (y : S512x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S512x1024.size (by sl_kernel_rfl) y

/-- What case C leaves in output 3's staging buffer: its pieces read back over junk. -/
def out1_C_3 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) : Vec F S512x1024 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch accumulator, which the kernel carries between points, cover it: 1 piece of
    the whole shape. -/
theorem scover1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) (y : S512x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S512x1024.size (by sl_kernel_rfl) y

/-- What case C leaves in the scratch accumulator: its pieces read back over junk. -/
def sout1_C_0 (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .bf16) (x2 : Vec F S1024x1024 .bf16) (xs0 : Vec F S512x1024 .f32) : Vec F S512x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output and the scratch hold after each point -/

/-- THE ACCUMULATION. What output 3's staging buffer and the scratch accumulator hold after the body at position `n` (a pair:
    the output, then the scratch): the case the closed forms select at `n`, run at the point's memrefs and input blocks, the
    scratch it reads at what this leaves at `n - 1`. An assignment of the conditions no point meets is no case. -/
def outsAt1 (c : Dev nD) : (n : ℕ) → n < cfg1.N → Vec F S512x1024 .f32 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by have hN : n + 1 < 32 := lt_of_lt_of_eq hn (show cfg1.N = 32 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the scratch the kernel CARRIES between points: before the first point the
    class's (`Pipeline.ΦA`: the scratch at anything); afterwards the scoped rest with the scratch at what the point before
    left in it (`outsAt1`'s second component), the other scoped buffers at anything, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, by `dsimp`: `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is
    in; so that case's run applies; the invariant hands the body the carried scratch at what the point before left
    (`PhiS1_pos`; at anything at the first point, `PhiS1_zero`), the other scoped buffers and the generator register at some
    state, and takes the scratch back at this point's contents (`PhiS1_succ`, its pieces covering it); the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HS0 Hg]
        · isplitl [HR0 HR1 HR2 HR3 HR4 HR5 HR6 HR7 HR8 HR9 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.IdealRun.lean ====
import proofs.«120050_j80977313399765_2_alg».proof.Proof.IdealRegion0
import proofs.«120050_j80977313399765_2_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: the host stretch, the projection region, the attention region

@main is twelve host operations (transposes, roundings to bf16, two concatenations and three reshapes) followed by
two TensorCore regions and nothing after them. This module follows every unscoped buffer of a core through the
three segments: after the host stretch the buffers hold the fold of the operations over the launch memory; a region
leaves its windows' arrays at what its pipeline's write-backs leave and every other buffer as it found it. Each
region is stated as a segment over the thread state "every unscoped buffer at the boundary's contents, the generator
register at some state, nothing owed", from its proof data and body obligation; the second region's invariant
carries the accumulator scratch between grid points, so it enters and leaves the class invariant through the two
lemmas its module proves. The launch theorem over the three segments then gives: every weakly fair execution
terminates, nothing faults, and the final memory holds every unscoped buffer at the last boundary's contents — from
which the argument arrays are read back as launched, and the result array as the second region's output window.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a stretch of host operations, then the two kernel regions

## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and none is a window's array, so the fold at
    an argument's buffer walks back to the launch memory -/

/-- No operation of the host stretch writes the buffer in the goal: each operation's written set is the singleton of
    its result, and the results are other references. -/
local macro "host_unwritten" : tactic => `(tactic| (
  simp only [hostOps0, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-- A buffer that is no window's array of either region and that no host operation writes ends as launched: the fold
    walks back through region 1, region 0 and the host stretch to the launch memory. -/
theorem W3_of_untouched (c : Dev nD) (b : Ref sig .tc) (h1 : ∀ w, Pipeline.arrRef spec1 w ≠ b) (h0 : ∀ w, Pipeline.arrRef spec0 w ≠ b)
    (hw : ∀ op ∈ (hostOps0 : List (HloOp τ sig (Elt F))), (Proc.devRef .tc b : DevRef τ sig) ∉ op.writes) :
    W3 m ρ c (Proc.devRef .tc b) = m ((c : Thread nD τ).loc b) :=
  calc W3 m ρ c (Proc.devRef .tc b)
    _ = W2 m ρ c (Proc.devRef .tc b) := W3_of_ne m ρ c b h1
    _ = W1 m ρ c (Proc.devRef .tc b) := W2_of_ne m ρ c b h0
    _ = W0 m ρ c (Proc.devRef .tc b) := StableHlo.after_of_forall_not_mem (b := Proc.devRef .tc b) _ _ hw
    _ = m ((c : Thread nD τ).loc b) := rfl

/-- Each argument array is the array of no window and the result of no host operation: it ends as launched. -/
theorem W3_main_arg0 (c : Dev nD) : W3 m ρ c (Proc.devRef .tc main_arg0) = m ((c : Thread nD τ).loc main_arg0) :=
  W3_of_untouched m ρ c main_arg0 (by decide) (by decide) (List.forall_iff_forall_mem.mp (by host_unwritten))
theorem W3_main_arg1 (c : Dev nD) : W3 m ρ c (Proc.devRef .tc main_arg1) = m ((c : Thread nD τ).loc main_arg1) :=
  W3_of_untouched m ρ c main_arg1 (by decide) (by decide) (List.forall_iff_forall_mem.mp (by host_unwritten))
theorem W3_main_arg2 (c : Dev nD) : W3 m ρ c (Proc.devRef .tc main_arg2) = m ((c : Thread nD τ).loc main_arg2) :=
  W3_of_untouched m ρ c main_arg2 (by decide) (by decide) (List.forall_iff_forall_mem.mp (by host_unwritten))
theorem W3_main_arg3 (c : Dev nD) : W3 m ρ c (Proc.devRef .tc main_arg3) = m ((c : Thread nD τ).loc main_arg3) :=
  W3_of_untouched m ρ c main_arg3 (by decide) (by decide) (List.forall_iff_forall_mem.mp (by host_unwritten))
theorem W3_main_arg4 (c : Dev nD) : W3 m ρ c (Proc.devRef .tc main_arg4) = m ((c : Thread nD τ).loc main_arg4) :=
  W3_of_untouched m ρ c main_arg4 (by decide) (by decide) (List.forall_iff_forall_mem.mp (by host_unwritten))
theorem W3_main_arg5 (c : Dev nD) : W3 m ρ c (Proc.devRef .tc main_arg5) = m ((c : Thread nD τ).loc main_arg5) :=
  W3_of_untouched m ρ c main_arg5 (by decide) (by decide) (List.forall_iff_forall_mem.mp (by host_unwritten))
theorem W3_main_arg6 (c : Dev nD) : W3 m ρ c (Proc.devRef .tc main_arg6) = m ((c : Thread nD τ).loc main_arg6) :=
  W3_of_untouched m ρ c main_arg6 (by decide) (by decide) (List.forall_iff_forall_mem.mp (by host_unwritten))

/-- The result array is region 1's output window: it ends at what that pipeline's write-backs leave. -/
theorem W3_main_v13 (c : Dev nD) : W3 m ρ c (Proc.devRef .tc main_v13) = (dat1 (V2 m ρ) c).arrAt 3 cfg1.N :=
  W3_arr m ρ c 3

/-- Region 0's three output arrays, as region 1 finds them: what region 0's write-backs leave. -/
theorem V2_main_v12_0 (c : Dev nD) : V2 m ρ c main_v12_0 = (dat0 (V1 m ρ) c).arrAt 3 cfg0.N := W2_arr m ρ c 3
theorem V2_main_v12_1 (c : Dev nD) : V2 m ρ c main_v12_1 = (dat0 (V1 m ρ) c).arrAt 4 cfg0.N := W2_arr m ρ c 4
theorem V2_main_v12_2 (c : Dev nD) : V2 m ρ c main_v12_2 = (dat0 (V1 m ρ) c).arrAt 5 cfg0.N := W2_arr m ρ c 5

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays split out of
    the unscoped buffers and are put back at the exit contents; the generator register goes into the invariant and
    comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads
    at the end). Its invariant carries the accumulator between points: it starts from the scoped rest and the
    generator register (`hin1`) and gives them back after the last point (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer of every core at the last boundary's contents
    `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- THE RUN'S VALUE: the result array ends at what region 1's write-backs leave, and every argument array as
    launched. -/
theorem run_value : θ_run defs (onTc (τ := τ) (main (F := F))) ⟨m, fun _ => 0, ρ⟩ (fun r => ∀ c : Dev nD,
      r.2.mem ((c.tc : Thread nD τ).loc main_v13) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (W3_main_v13 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Hand

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.QkvPayload.lean ====
/-
  The projection kernel's stored values read at coordinates, over the extended reals.

  The body multiplies a [512, 1024] block of x by the [1024, 3072] matrix whose three column blocks are the transposed
  weights, adds the one-row bias stretched down the rows, and stores columns 0..1023, 1024..2047 and 2048..3071 as the
  q, k and v blocks. At (y, f) the stored values are the row y of the block against column f, 1024 + f or 2048 + f of
  the matrix, plus the bias there; the change of float format on the way out is the identity.
-/
import proofs.«120050_j80977313399765_2_alg».proof.Proof.Gen.KernelIdeal.Skeleton
import proofs.«120050_j80977313399765_2_alg».proof.Proof.LibColumnBlocks
import proofs.«120050_j80977313399765_2_alg».proof.Proof.LibRowOps
import Idealize.ShloMosaic.Lib.ValueIdx
import Idealize.ShloMosaic.Lib.Pipeline.Value
import Idealize.ShloMosaic.PureOps.Ideal.Laws

noncomputable section

namespace Cert.KernelIdeal.QkvValue

open Cert.KernelIdeal Cert.KernelIdeal.Gen Idealize.ShloMosaic Idealize.ShloMosaic.ValueIdx

/-- The product's left operand index keeps the result's row. -/
theorem dotW_lhs0 (j : S512x3072.Idx) (k : dot_S512x1024_S1024x3072_S512x3072_1_0_0_1_n_n.contr.Idx) :
    (dot_S512x1024_S1024x3072_S512x3072_1_0_0_1_n_n.lhsIdx j k 0).val = (j 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl

/-- The product's right operand index keeps the result's column. -/
theorem dotW_rhs1 (j : S512x3072.Idx) (k : dot_S512x1024_S1024x3072_S512x3072_1_0_0_1_n_n.contr.Idx) :
    (dot_S512x1024_S1024x3072_S512x3072_1_0_0_1_n_n.rhsIdx j k 1).val = (j 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The fused product plus bias at (y, c): row y of the block against column c of the matrix, plus the bias at c. -/
theorem pay1_apply (x0 : Vec Ideal S512x1024 .bf16) (x1 : Vec Ideal S1024x3072 .bf16) (x2 : Vec Ideal S1x3072 .f32)
    (y : Fin 512) (c : Fin 3072) :
    k0_pay1 (F := Ideal) x0 x1 x2 (ix2 y c) = (∑ e : Fin 1024, x0 (ix2 y e) * x1 (ix2 e c)) + x2 (ix2 (0 : Fin 1) c) := by
  unfold k0_pay1
  simp only [shapeCast_self]
  rw [addf_apply]
  refine congrArg₂ (· + ·) ?_ ?_
  · exact Cert.LibColumnBlocks.matmul_zero_apply dot_S512x1024_S1024x3072_S512x3072_1_0_0_1_n_n rfl rfl rfl rfl
      dotW_lhs0 dotW_rhs1 x0 x1 y c none
  · exact Cert.LibRowOps.bcast_1b_ab x2 _ y c

/-- The q block at (y, f). -/
theorem pay2_apply (x0 : Vec Ideal S512x1024 .bf16) (x1 : Vec Ideal S1024x3072 .bf16) (x2 : Vec Ideal S1x3072 .f32)
    (y : Fin 512) (f : Fin 1024) :
    k0_pay2 (F := Ideal) x0 x1 x2 (ix2 y f)
      = (∑ e : Fin 1024, x0 (ix2 y e) * x1 (ix2 e (⟨f.val, by omega⟩ : Fin 3072))) + x2 (ix2 (0 : Fin 1) (⟨f.val, by omega⟩ : Fin 3072)) := by
  unfold k0_pay2
  rw [truncf_apply]
  refine (extractStridedSlice_apply _ _ _ (ix2 y f) (ix2 y (⟨f.val, by omega⟩ : Fin 3072)) fun a => ?_).trans (pay1_apply x0 x1 x2 y _)
  match a with
  | ⟨0, _⟩ => show y.val = 0 + y.val; omega
  | ⟨1, _⟩ => show f.val = 0 + f.val; omega

/-- The k block at (y, f). -/
theorem pay3_apply (x0 : Vec Ideal S512x1024 .bf16) (x1 : Vec Ideal S1024x3072 .bf16) (x2 : Vec Ideal S1x3072 .f32)
    (y : Fin 512) (f : Fin 1024) :
    k0_pay3 (F := Ideal) x0 x1 x2 (ix2 y f)
      = (∑ e : Fin 1024, x0 (ix2 y e) * x1 (ix2 e (⟨1024 + f.val, by omega⟩ : Fin 3072))) + x2 (ix2 (0 : Fin 1) (⟨1024 + f.val, by omega⟩ : Fin 3072)) := by
  unfold k0_pay3
  rw [truncf_apply]
  refine (extractStridedSlice_apply _ _ _ (ix2 y f) (ix2 y (⟨1024 + f.val, by omega⟩ : Fin 3072)) fun a => ?_).trans (pay1_apply x0 x1 x2 y _)
  match a with
  | ⟨0, _⟩ => show y.val = 0 + y.val; omega
  | ⟨1, _⟩ => rfl

/-- The v block at (y, f). -/
theorem pay4_apply (x0 : Vec Ideal S512x1024 .bf16) (x1 : Vec Ideal S1024x3072 .bf16) (x2 : Vec Ideal S1x3072 .f32)
    (y : Fin 512) (f : Fin 1024) :
    k0_pay4 (F := Ideal) x0 x1 x2 (ix2 y f)
      = (∑ e : Fin 1024, x0 (ix2 y e) * x1 (ix2 e (⟨2048 + f.val, by omega⟩ : Fin 3072))) + x2 (ix2 (0 : Fin 1) (⟨2048 + f.val, by omega⟩ : Fin 3072)) := by
  unfold k0_pay4
  rw [truncf_apply]
  refine (extractStridedSlice_apply _ _ _ (ix2 y f) (ix2 y (⟨2048 + f.val, by omega⟩ : Fin 3072)) fun a => ?_).trans (pay1_apply x0 x1 x2 y _)
  match a with
  | ⟨0, _⟩ => show y.val = 0 + y.val; omega
  | ⟨1, _⟩ => rfl

end Cert.KernelIdeal.QkvValue

end
-- ==== Proof.QkvArrays.lean ====
/-
  The three projection arrays after the first region, as one function of the arrays the region finds.

  The first region walks the 4096 rows of the activations in 8 blocks of 512 rows. At each block it multiplies the
  block by the whole 1024 x 3072 matrix, adds the whole bias row, and writes columns 0..1023, 1024..2047 and
  2048..3071 of the result back as block t (rows 512 t .. 512 t + 511, all 1024 columns) of three arrays. Every
  point writes back, and the 8 blocks tile each [4096, 1024] array, so each array ends holding, at (s, f), row s of
  the activations against column off + f of the matrix plus the bias there, off = 0, 1024, 2048.
-/
import proofs.«120050_j80977313399765_2_alg».proof.Proof.IdealRegion0
import proofs.«120050_j80977313399765_2_alg».proof.Proof.QkvPayload
import Idealize.ShloMosaic.Lib.Pipeline.Value
import Idealize.ShloMosaic.Lib.ValueIdx

noncomputable section

namespace Cert.KernelIdeal.QkvValue

open Cert.KernelIdeal Cert.KernelIdeal.Gen Cert.KernelIdeal.Hand Idealize.ShloMosaic Idealize.ShloMosaic.ValueIdx Idealize.ShloMosaic.TcCoe Idealize.SL.Sem
open Idealize.ShloMosaic.Pipeline (Dat)

/-- Row `s` of `X` against column `col` of `Wt`, plus the bias `B` at `col`. -/
def linAt (X : S4096x1024.Idx → EReal) (Wt : S1024x3072.Idx → EReal) (B : S1x3072.Idx → EReal) (s : Fin 4096) (col : Fin 3072) : EReal :=
  (∑ e : Fin 1024, X (ix2 s e) * Wt (ix2 e col)) + B (ix2 (0 : Fin 1) col)

/-- A value that is row `y` of a block against column `col` plus the bias is `linAt` at row `s` of the array, when the
    block's rows are the array's rows from `r0` on (`h0`), `s = r0 + y`, and the matrix and the bias are read whole. -/
theorem lin_block (x0 : Vec Ideal S512x1024 .bf16) (x1 : Vec Ideal S1024x3072 .bf16) (x2 : Vec Ideal S1x3072 .f32)
    (X : S4096x1024.Idx → EReal) (Wt : S1024x3072.Idx → EReal) (B : S1x3072.Idx → EReal) (r0 : Nat)
    (h0 : ∀ (y : Fin 512) (e : Fin 1024) (s : Fin 4096), s.val = r0 + y.val → x0 (ix2 y e) = X (ix2 s e))
    (h1 : ∀ (e : Fin 1024) (col : Fin 3072), x1 (ix2 e col) = Wt (ix2 e col))
    (h2 : ∀ col : Fin 3072, x2 (ix2 (0 : Fin 1) col) = B (ix2 (0 : Fin 1) col))
    (y : Fin 512) (col : Fin 3072) (s : Fin 4096) (hs : s.val = r0 + y.val) :
    (∑ e : Fin 1024, x0 (ix2 y e) * x1 (ix2 e col)) + x2 (ix2 (0 : Fin 1) col) = linAt X Wt B s col := by
  unfold linAt
  refine congrArg₂ (· + ·) (Finset.sum_congr rfl fun e _ => ?_) (h2 col)
  rw [h0 y e s hs, h1 e col]

/-- The stored q value at an index `j` of the block is `linAt` at the array index `i` the block puts `j` at. -/
theorem pay2_at (x0 : Vec Ideal S512x1024 .bf16) (x1 : Vec Ideal S1024x3072 .bf16) (x2 : Vec Ideal S1x3072 .f32)
    (X : S4096x1024.Idx → EReal) (Wt : S1024x3072.Idx → EReal) (B : S1x3072.Idx → EReal) (r0 : Nat)
    (h0 : ∀ (y : Fin 512) (e : Fin 1024) (s : Fin 4096), s.val = r0 + y.val → x0 (ix2 y e) = X (ix2 s e))
    (h1 : ∀ (e : Fin 1024) (col : Fin 3072), x1 (ix2 e col) = Wt (ix2 e col))
    (h2 : ∀ col : Fin 3072, x2 (ix2 (0 : Fin 1) col) = B (ix2 (0 : Fin 1) col))
    (j : S512x1024.Idx) (s : Fin 4096) (col : Fin 3072) (hs : s.val = r0 + (j 0).val) (hc : col.val = (j 1).val) :
    k0_pay2 (F := Ideal) x0 x1 x2 j = linAt X Wt B s col := by
  obtain ⟨y, f, rfl⟩ : ∃ (y : Fin 512) (f : Fin 1024), j = ix2 y f := ⟨j 0, j 1, eq_ix2 j⟩
  have hlt : f.val < 3072 := by clear hc hs; have := f.isLt; omega
  obtain rfl : col = (⟨f.val, hlt⟩ : Fin 3072) := Fin.ext hc
  rw [pay2_apply]
  exact lin_block x0 x1 x2 X Wt B r0 h0 h1 h2 y _ s hs

/-- The stored k value likewise, at column 1024 + f. -/
theorem pay3_at (x0 : Vec Ideal S512x1024 .bf16) (x1 : Vec Ideal S1024x3072 .bf16) (x2 : Vec Ideal S1x3072 .f32)
    (X : S4096x1024.Idx → EReal) (Wt : S1024x3072.Idx → EReal) (B : S1x3072.Idx → EReal) (r0 : Nat)
    (h0 : ∀ (y : Fin 512) (e : Fin 1024) (s : Fin 4096), s.val = r0 + y.val → x0 (ix2 y e) = X (ix2 s e))
    (h1 : ∀ (e : Fin 1024) (col : Fin 3072), x1 (ix2 e col) = Wt (ix2 e col))
    (h2 : ∀ col : Fin 3072, x2 (ix2 (0 : Fin 1) col) = B (ix2 (0 : Fin 1) col))
    (j : S512x1024.Idx) (s : Fin 4096) (col : Fin 3072) (hs : s.val = r0 + (j 0).val) (hc : col.val = 1024 + (j 1).val) :
    k0_pay3 (F := Ideal) x0 x1 x2 j = linAt X Wt B s col := by
  obtain ⟨y, f, rfl⟩ : ∃ (y : Fin 512) (f : Fin 1024), j = ix2 y f := ⟨j 0, j 1, eq_ix2 j⟩
  have hlt : 1024 + f.val < 3072 := by clear hc hs; have := f.isLt; omega
  obtain rfl : col = (⟨1024 + f.val, hlt⟩ : Fin 3072) := Fin.ext hc
  rw [pay3_apply]
  exact lin_block x0 x1 x2 X Wt B r0 h0 h1 h2 y _ s hs

/-- The stored v value likewise, at column 2048 + f. -/
theorem pay4_at (x0 : Vec Ideal S512x1024 .bf16) (x1 : Vec Ideal S1024x3072 .bf16) (x2 : Vec Ideal S1x3072 .f32)
    (X : S4096x1024.Idx → EReal) (Wt : S1024x3072.Idx → EReal) (B : S1x3072.Idx → EReal) (r0 : Nat)
    (h0 : ∀ (y : Fin 512) (e : Fin 1024) (s : Fin 4096), s.val = r0 + y.val → x0 (ix2 y e) = X (ix2 s e))
    (h1 : ∀ (e : Fin 1024) (col : Fin 3072), x1 (ix2 e col) = Wt (ix2 e col))
    (h2 : ∀ col : Fin 3072, x2 (ix2 (0 : Fin 1) col) = B (ix2 (0 : Fin 1) col))
    (j : S512x1024.Idx) (s : Fin 4096) (col : Fin 3072) (hs : s.val = r0 + (j 0).val) (hc : col.val = 2048 + (j 1).val) :
    k0_pay4 (F := Ideal) x0 x1 x2 j = linAt X Wt B s col := by
  obtain ⟨y, f, rfl⟩ : ∃ (y : Fin 512) (f : Fin 1024), j = ix2 y f := ⟨j 0, j 1, eq_ix2 j⟩
  have hlt : 2048 + f.val < 3072 := by clear hc hs; have := f.isLt; omega
  obtain rfl : col = (⟨2048 + f.val, hlt⟩ : Fin 3072) := Fin.ext hc
  rw [pay4_apply]
  exact lin_block x0 x1 x2 X Wt B r0 h0 h1 h2 y _ s hs

/-! ## The index maps, and what a block is of its array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the activations' window and the three output windows are at
    block (t, 0) at point t; the matrix's and the bias's are at block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The activations' block at point `t` is rows `512 t ..` of the array the region finds. -/
theorem iblk0_rows (c : Dev nD) (t : Fin cfg0.N) (y : Fin 512) (e : Fin 1024) (s : Fin 4096) (hs : s.val = 512 * t.val + y.val) :
    (iblk0 V c 0 t : Vec Ideal S512x1024 .bf16) (ix2 y e) = (V c main_v11 : S4096x1024.Idx → EReal) (ix2 s e) := by
  obtain ⟨e0, e1, -⟩ := idx_facts t
  show V c main_v11 (((cfg0.win 0).blk t).view.emb (ix2 y e)) = V c main_v11 (ix2 s e)
  refine congrArg _ ?_
  funext a; apply Fin.ext
  match a with
  | ⟨0, _⟩ => show win0_0.index t (0 : Fin 2) * 512 + 1 * y.val = s.val; rw [e0, hs]; omega
  | ⟨1, _⟩ => show win0_0.index t (1 : Fin 2) * 1024 + 1 * e.val = e.val; rw [e1]; omega

/-- The matrix's block at every point is the whole array. -/
theorem iblk0_matrix (c : Dev nD) (t : Fin cfg0.N) (e : Fin 1024) (col : Fin 3072) :
    (iblk0 V c 1 t : Vec Ideal S1024x3072 .bf16) (ix2 e col) = (V c main_v6 : S1024x3072.Idx → EReal) (ix2 e col) := by
  obtain ⟨-, -, e0, e1, -⟩ := idx_facts t
  show V c main_v6 (((cfg0.win 1).blk t).view.emb (ix2 e col)) = V c main_v6 (ix2 e col)
  refine congrArg _ ?_
  funext a; apply Fin.ext
  match a with
  | ⟨0, _⟩ => show win0_1.index t (0 : Fin 2) * 1024 + 1 * e.val = e.val; rw [e0]; omega
  | ⟨1, _⟩ => show win0_1.index t (1 : Fin 2) * 3072 + 1 * col.val = col.val; rw [e1]; omega

/-- The bias's block at every point is the whole array. -/
theorem iblk0_bias (c : Dev nD) (t : Fin cfg0.N) (col : Fin 3072) :
    (iblk0 V c 2 t : Vec Ideal S1x3072 .f32) (ix2 (0 : Fin 1) col) = (V c main_v10 : S1x3072.Idx → EReal) (ix2 (0 : Fin 1) col) := by
  obtain ⟨-, -, -, -, e0, e1, -⟩ := idx_facts t
  show V c main_v10 (((cfg0.win 2).blk t).view.emb (ix2 (0 : Fin 1) col)) = V c main_v10 (ix2 (0 : Fin 1) col)
  refine congrArg _ ?_
  funext a; apply Fin.ext
  match a with
  | ⟨0, _⟩ => show win0_2.index t (0 : Fin 2) * 1 + 1 * 0 = 0; rw [e0]
  | ⟨1, _⟩ => show win0_2.index t (1 : Fin 2) * 3072 + 1 * col.val = col.val; rw [e1]; omega

/-! ## Output window 3: the q array -/

/-- What the array ends holding. -/
abbrev G3 (c : Dev nD) : S4096x1024.Idx → EReal := fun i =>
  linAt (V c main_v11) (V c main_v6) (V c main_v10) ⟨(i 0).val, (i 0).isLt⟩ ⟨(i 1).val, by have h : (i 1).val < 1024 := (i 1).isLt; omega⟩

/-- What point `t` writes back is block `t` of `G3`. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz, View.ld_unit_zero (S := S1x3072) hz]
  obtain ⟨-, -, -, -, -, -, e0, e1, -⟩ := idx_facts t
  funext j
  show k0_pay2 (F := Ideal) (iblk0 V c 0 t) (iblk0 V c 1 t) (iblk0 V c 2 t) j = G3 V c (((cfg0.win 3).blk t).view.emb j)
  refine pay2_at _ _ _ _ _ _ (512 * t.val) (iblk0_rows V c t) (iblk0_matrix V c t) (iblk0_bias V c t) j _ _ ?_ ?_
  · show win0_3.index t (0 : Fin 2) * 512 + 1 * (j 0).val = 512 * t.val + (j 0).val; rw [e0]; omega
  · show (win0_3.index t (1 : Fin 2) * 1024 + 1 * (j 1).val) = (j 1).val; rw [e1]; omega

/-- An index of the array is in point `t`'s block iff each coordinate is in the block's range on its axis. -/
theorem mem_blk3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v12_0).slice (win0_3.rect t)).set ↔ _
  rw [View.set_slice_whole, Rect.mem_set_unit]
  exact Iff.rfl

/-- Every index of the array is in some point's block: row `r` is in block `r / 512`. -/
theorem cover3 (i : S4096x1024.Idx) : ∃ t : Fin cfg0.N, (cfg0.win 3).flush t = true ∧ i ∈ ((cfg0.win 3).blk t).view.set := by
  have hN : cfg0.N = 8 := N_0
  have hi0 : (i 0).val < 4096 := (i 0).isLt
  have hi1 : (i 1).val < 1024 := (i 1).isLt
  refine ⟨⟨(i 0).val / 512, by omega⟩, flush0_3 _, ?_⟩
  obtain ⟨-, -, -, -, -, -, e0, e1, -⟩ := idx_facts ⟨(i 0).val / 512, by omega⟩
  rw [mem_blk3]
  intro a
  match a with
  | ⟨0, _⟩ => show win0_3.index _ (0 : Fin 2) * 512 ≤ (i 0).val ∧ (i 0).val < win0_3.index _ (0 : Fin 2) * 512 + 512; rw [e0]; show (i 0).val / 512 * 512 ≤ (i 0).val ∧ (i 0).val < (i 0).val / 512 * 512 + 512; omega
  | ⟨1, _⟩ => show win0_3.index _ (1 : Fin 2) * 1024 ≤ (i 1).val ∧ (i 1).val < win0_3.index _ (1 : Fin 2) * 1024 + 1024; rw [e1]; omega

/-- The q array after the region: row `s` of the activations against column `f` of the matrix, plus the bias there. -/
theorem final0_3 (c : Dev nD) : (dat0 V c).arrAt 3 cfg0.N = fun i =>
    linAt (V c main_v11) (V c main_v6) (V c main_v10) ⟨(i 0).val, (i 0).isLt⟩ ⟨(i 1).val, by have h : (i 1).val < 1024 := (i 1).isLt; omega⟩ :=
  (dat0 V c).arrAt_eq_of_cover 3 (G3 V c) (fun t _ => flushed3_eq V c t) cover3

/-! ## Output window 4: the k array -/

/-- What the array ends holding. -/
abbrev G4 (c : Dev nD) : S4096x1024.Idx → EReal := fun i =>
  linAt (V c main_v11) (V c main_v6) (V c main_v10) ⟨(i 0).val, (i 0).isLt⟩ ⟨1024 + (i 1).val, by have h : (i 1).val < 1024 := (i 1).isLt; omega⟩

/-- What point `t` writes back is block `t` of `G4`. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x3072) hz, View.ld_unit_zero (S := S1x3072) hz]
  obtain ⟨-, -, -, -, -, -, -, -, e0, e1, -⟩ := idx_facts t
  funext j
  show k0_pay3 (F := Ideal) (iblk0 V c 0 t) (iblk0 V c 1 t) (iblk0 V c 2 t) j = G4 V c (((cfg0.win 4).blk t).view.emb j)
  refine pay3_at _ _ _ _ _ _ (512 * t.val) (iblk0_rows V c t) (iblk0_matrix V c t) (iblk0_bias V c t) j _ _ ?_ ?_
  · show win0_4.index t (0 : Fin 2) * 512 + 1 * (j 0).val = 512 * t.val + (j 0).val; rw [e0]; omega
  · show 1024 + (win0_4.index t (1 : Fin 2) * 1024 + 1 * (j 1).val) = 1024 + (j 1).val; rw [e1]; omega

/-- An index of the array is in point `t`'s block iff each coordinate is in the block's range on its axis. -/
theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v12_1).slice (win0_4.rect t)).set ↔ _
  rw [View.set_slice_whole, Rect.mem_set_unit]
  exact Iff.rfl

/-- Every index of the array is in some point's block: row `r` is in block `r / 512`. -/
theorem cover4 (i : S4096x1024.Idx) : ∃ t : Fin cfg0.N, (cfg0.win 4).flush t = true ∧ i ∈ ((cfg0.win 4).blk t).view.set := by
  have hN : cfg0.N = 8 := N_0
  have hi0 : (i 0).val < 4096 := (i 0).isLt
  have hi1 : (i 1).val < 1024 := (i 1).isLt
  refine ⟨⟨(i 0).val / 512, by omega⟩, flush0_4 _, ?_⟩
  obtain ⟨-, -, -, -, -, -, -, -, e0, e1, -⟩ := idx_facts ⟨(i 0).val / 512, by omega⟩
  rw [mem_blk4]
  intro a
  match a with
  | ⟨0, _⟩ => show win0_4.index _ (0 : Fin 2) * 512 ≤ (i 0).val ∧ (i 0).val < win0_4.index _ (0 : Fin 2) * 512 + 512; rw [e0]; show (i 0).val / 512 * 512 ≤ (i 0).val ∧ (i 0).val < (i 0).val / 512 * 512 + 512; omega
  | ⟨1, _⟩ => show win0_4.index _ (1 : Fin 2) * 1024 ≤ (i 1).val ∧ (i 1).val < win0_4.index _ (1 : Fin 2) * 1024 + 1024; rw [e1]; omega

/-- The k array after the region: row `s` of the activations against column `1024 + f` of the matrix, plus the bias there. -/
theorem final0_4 (c : Dev nD) : (dat0 V c).arrAt 4 cfg0.N = fun i =>
    linAt (V c main_v11) (V c main_v6) (V c main_v10) ⟨(i 0).val, (i 0).isLt⟩ ⟨1024 + (i 1).val, by have h : (i 1).val < 1024 := (i 1).isLt; omega⟩ :=
  (dat0 V c).arrAt_eq_of_cover 4 (G4 V c) (fun t _ => flushed4_eq V c t) cover4

/-! ## Output window 5: the v array -/

/-- What the array ends holding. -/
abbrev G5 (c : Dev nD) : S4096x1024.Idx → EReal := fun i =>
  linAt (V c main_v11) (V c main_v6) (V c main_v10) ⟨(i 0).val, (i 0).isLt⟩ ⟨2048 + (i 1).val, by have h : (i 1).val < 1024 := (i 1).isLt; omega⟩

/-- What point `t` writes back is block `t` of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x3072) hz, View.ld_unit_zero (S := S1x3072) hz]
  obtain ⟨-, -, -, -, -, -, -, -, -, -, e0, e1⟩ := idx_facts t
  funext j
  show k0_pay4 (F := Ideal) (iblk0 V c 0 t) (iblk0 V c 1 t) (iblk0 V c 2 t) j = G5 V c (((cfg0.win 5).blk t).view.emb j)
  refine pay4_at _ _ _ _ _ _ (512 * t.val) (iblk0_rows V c t) (iblk0_matrix V c t) (iblk0_bias V c t) j _ _ ?_ ?_
  · show win0_5.index t (0 : Fin 2) * 512 + 1 * (j 0).val = 512 * t.val + (j 0).val; rw [e0]; omega
  · show 2048 + (win0_5.index t (1 : Fin 2) * 1024 + 1 * (j 1).val) = 2048 + (j 1).val; rw [e1]; omega

/-- An index of the array is in point `t`'s block iff each coordinate is in the block's range on its axis. -/
theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v12_2).slice (win0_5.rect t)).set ↔ _
  rw [View.set_slice_whole, Rect.mem_set_unit]
  exact Iff.rfl

/-- Every index of the array is in some point's block: row `r` is in block `r / 512`. -/
theorem cover5 (i : S4096x1024.Idx) : ∃ t : Fin cfg0.N, (cfg0.win 5).flush t = true ∧ i ∈ ((cfg0.win 5).blk t).view.set := by
  have hN : cfg0.N = 8 := N_0
  have hi0 : (i 0).val < 4096 := (i 0).isLt
  have hi1 : (i 1).val < 1024 := (i 1).isLt
  refine ⟨⟨(i 0).val / 512, by omega⟩, flush0_5 _, ?_⟩
  obtain ⟨-, -, -, -, -, -, -, -, -, -, e0, e1⟩ := idx_facts ⟨(i 0).val / 512, by omega⟩
  rw [mem_blk5]
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 1024 ≤ (i 1).val ∧ (i 1).val < win0_5.index _ (1 : Fin 2) * 1024 + 1024; rw [e1]; omega

/-- The v array after the region: row `s` of the activations against column `2048 + f` of the matrix, plus the bias there. -/
theorem final0_5 (c : Dev nD) : (dat0 V c).arrAt 5 cfg0.N = fun i =>
    linAt (V c main_v11) (V c main_v6) (V c main_v10) ⟨(i 0).val, (i 0).isLt⟩ ⟨2048 + (i 1).val, by have h : (i 1).val < 1024 := (i 1).isLt; omega⟩ :=
  (dat0 V c).arrAt_eq_of_cover 5 (G5 V c) (fun t _ => flushed5_eq V c t) cover5

end Cert.KernelIdeal.QkvValue

end
-- ==== Proof.LibRowDot.lean ====
/-
  A matrix product that contracts the COLUMN axes of both operands — `lhs [A, K]` against `rhs [B, K]`, the result
  `[A, B]`, no batch axis: `lhs · rhsᵀ` — read at coordinates over the extended reals: at `(a, b)` it is the sum over
  `k` of `lhs (a, k) · rhs (b, k)`. Stated for the accumulating product into a zero accumulator and for the host's
  product. The dimension record's two non-contracted coordinates are taken as hypotheses; at a literal record they
  hold by computation.
-/
import Idealize.ShloMosaic.PureOps.Ideal.Laws
import Idealize.ShloMosaic.Lib.ValueIdx
import Idealize.ShloMosaic.Lib.Pipeline.Value

noncomputable section

namespace Cert.LibRowDot

open Idealize.ShloMosaic Idealize.ShloMosaic.ValueIdx

variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum d hr hs hlc hrc hl0 hr0 lhs rhs a b)

include hr hs hlc hrc hl0 hr0 in
/-- The host's product, at `(a, b)`. -/
theorem hostDot_apply (prec : Option ContractPrecision) :
    Host.dotGeneral d prec lhs rhs (ix2 a b) = ∑ k : Fin K, lhs (ix2 a k) * rhs (ix2 b k) :=
  (Ideal.dotGeneral_apply d prec .single lhs rhs (ix2 a b)).trans (contr_sum d hr hs hlc hrc hl0 hr0 lhs rhs a b)

end Cert.LibRowDot

end
-- ==== Proof.LibRowMax.lean ====
/-
  Row maxima read at coordinates, at the extended reals.

  A maximum over the last axis of an [A, B] array — the kernel-side reduction started from the accumulator word 0xFF800000, and
  the host's one-operand reduce with a maximum body from any initial value — read at row a is the running maximum, from the
  starting value, of the row's entries (a, k), k over the last axis. And a running maximum started from b is at least b,
  so taking the maximum with b once more changes nothing. Every statement is over arbitrary extents and spells indices by
  their coordinates.
-/
import Idealize.ShloMosaic.PureOps.Ideal.Laws
import Idealize.ShloMosaic.Lib.ValueIdx
import Idealize.ShloMosaic.Lib.Pipeline.Value

noncomputable section

namespace Cert.LibRowMax

open Idealize.ShloMosaic Idealize.ShloMosaic.ValueIdx

/-- A maximum over the last axis of an [A, B] vector, at a: the running maximum, from the accumulator's value, of the
    entries (a, k). -/
theorem max_last2 {A B : ℕ} (src : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ src 0xFF800000#32 h hφ hacc (ix1 a)
      = (Finset.univ : Finset (Fin B)).fold max (FloatOps.ofBits (F := Ideal) .f32 0xFF800000#32) (fun k => src (ix2 a k)) := by
  refine (Ideal.multiReduction_maximumf_single src 0xFF800000#32 h hφ hacc (ix1 a)).trans ?_
  refine congrArg (Finset.univ.fold max (FloatOps.ofBits (F := Ideal) .f32 0xFF800000#32)) ?_
  funext k
  exact congrArg src (funext fun d => by
    match d with
    | ⟨0, _⟩ => rfl
    | ⟨1, _⟩ => rfl)

/-- The host's maximum over the last axis of an [A, B] array, at a: the running maximum, from the initial value, of the
    entries (a, k). -/
theorem hostmax_last2 {A B : ℕ} (x : (⟨2, ![A, B]⟩ : Shape).Idx → EReal) (init : (⟨0, ![]⟩ : Shape).Idx → EReal)
    (h' : (⟨2, ![A, B]⟩ : Shape).ReducesTo [1] ⟨1, ![A]⟩) (h : (⟨2, ![A, B]⟩ : Shape).Reduces [1] ⟨1, ![A]⟩)
    (hu : 0 < (⟨0, ![]⟩ : Shape).numel) (a : Fin A) :
    Host.reduce (FloatOps.maximumf (F := Ideal) (φ := .f32)) x init h' hu (ix1 a)
      = (Finset.univ : Finset (Fin B)).fold max (init (Shape.Idx.first hu)) (fun k => x (ix2 a k)) := by
  refine (Host.reduce_eq_fold_single (FloatOps.maximumf (F := Ideal) (φ := .f32)) x init h' h hu (ix1 a)).trans ?_
  refine congrArg (Finset.univ.fold max (init (Shape.Idx.first hu))) ?_
  funext k
  exact congrArg x (funext fun d => by
    match d with
    | ⟨0, _⟩ => rfl
    | ⟨1, _⟩ => rfl)

/-- A running maximum over a finite set started from b is at least b: the maximum with b once more is itself. -/
theorem max_fold {ι : Type} (s : Finset ι) (b : EReal) (row : ι → EReal) : max b (s.fold max b row) = s.fold max b row := by
  classical
  have h : ∀ s : Finset ι, b ≤ s.fold max b row := fun s => by
    induction s using Finset.induction_on with
    | empty => simp
    | insert a s ha ih => rw [Finset.fold_insert ha]; exact le_max_of_le_right ih
  exact max_eq_right (h s)

end Cert.LibRowMax

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.LibRangeSums.lean ====
/-
  Finite sums cut into runs, in any commutative additive monoid.

  A sum over a·b consecutive naturals is a sum of a runs of b (or, position first, of b strides across the a runs), and
  a sum over a rank-3 index set is the triple sum over its coordinates. Nothing here depends on a particular program.
-/
import Idealize.ShloMosaic.Lib.ValueIdx

namespace Cert.LibRangeSums

open Idealize.ShloMosaic Idealize.ShloMosaic.ValueIdx Finset

variable {M : Type*} [AddCommMonoid M]

/-- A sum over a·b consecutive naturals is the sum of a runs of b: r = i·b + j with i < a, j < b. -/
theorem sum_range_mul (a b : ℕ) (f : ℕ → M) :
    ∑ r ∈ range (a * b), f r = ∑ i ∈ range a, ∑ j ∈ range b, f (i * b + j) := by
  induction a with
  | zero => simp
  | succ a ih => rw [Nat.succ_mul, sum_range_add, ih, sum_range_succ]

/-- The same sum taken position-in-the-run first: for each position j < b, across the a runs. -/
theorem sum_range_mul_pos_first (a b : ℕ) (f : ℕ → M) :
    ∑ r ∈ range (a * b), f r = ∑ j ∈ range b, ∑ i ∈ range a, f (i * b + j) := by
  rw [sum_range_mul, sum_comm]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine sum_congr rfl fun a _ => ?_
  rw [Fintype.sum_prod_type]
  rfl

end Cert.LibRangeSums
-- ==== Proof.AttnLaws.lean ====
/-
  The mathematics that joins the two programs, free of either program's text.

  Both compute, for a row s of queries, keys k and values v, the scores S j = ∑ e, q s e * k j e against every key
  j < 4096, the mixture ∑ j, S j * v j f scaled by 1/64, and a softmax of that row over the 1024 features f.
  One program scales the finished mixture, summed in four runs of 1024 keys added one after the other onto zero, by
  the factor 1/64; the other divides every score by sqrt 4096 = 64 before mixing, in one sum over all keys. On the
  extended reals the two agree when every entry is finite: distributing the factor over the sum, which fails at the
  infinities, is then a law of the reals. The softmax on top is one function of the scaled row on both sides.
-/
import Idealize.ShloMosaic.PureOps.Ideal
import Idealize.ShloMosaic.PureOps.Ideal.Laws
import proofs.«120050_j80977313399765_2_alg».proof.Proof.LibRankFactor
import proofs.«120050_j80977313399765_2_alg».proof.Proof.LibRangeSums

noncomputable section

namespace Cert.AttnLaws

open Idealize.ShloMosaic Finset

/-! ## The constants the two programs spell -/

/-- The pattern of 4096.0 denotes the real 4096. -/
theorem ofBits_4096 : Ideal.ofBits .f32 0x45800000#32 = ((4096 : ℝ) : EReal) := by
  simp [Ideal.ofBits, Ideal.ieee, -EReal.coe_mul]; norm_num

/-- The pattern of 0.015625 denotes the real 1/64 exactly (a power of two). -/
theorem ofBits_inv64 : Ideal.ofBits .f32 0x3C800000#32 = ((1 / 64 : ℝ) : EReal) := by
  simp [Ideal.ofBits, Ideal.ieee, -EReal.coe_mul]; norm_num

/-- The pattern 0xFF800000 denotes minus infinity. -/
theorem ofBits_neg_inf : Ideal.ofBits .f32 0xFF800000#32 = ⊥ := by
  simp [Ideal.ofBits, Ideal.ieee]

/-- The square root of 4096 is 64. -/
theorem sqrt_4096 : Ideal.sqrt ((4096 : ℝ) : EReal) = ((64 : ℝ) : EReal) := by
  show (if (4096 : ℝ) < 0 then (⊥ : EReal) else ((Real.sqrt 4096 : ℝ) : EReal)) = _
  rw [if_neg (by norm_num)]
  have h : Real.sqrt 4096 = 64 := by
    rw [show (4096 : ℝ) = 64 ^ 2 by norm_num]
    exact Real.sqrt_sq (by norm_num)
  rw [h]

/-! ## Arrays by coordinates -/

/-- A two-axis array's entry at row a, column b. -/
def mat {A B : ℕ} (x : (⟨2, ![A, B]⟩ : Shape).Idx → EReal) (a : Fin A) (b : Fin B) : EReal := x (ValueIdx.ix2 a b)

/-- A one-axis array's entry at a. -/
def vec {A : ℕ} (x : (⟨1, ![A]⟩ : Shape).Idx → EReal) (a : Fin A) : EReal := x (ValueIdx.ix1 a)

/-! ## Finite entries stay finite under the operations used -/

/-- Neither infinity. -/
def Fin' (x : EReal) : Prop := x ≠ ⊤ ∧ x ≠ ⊥

theorem fin_coe (r : ℝ) : Fin' (r : EReal) := ⟨EReal.coe_ne_top r, EReal.coe_ne_bot r⟩

theorem fin_iff {x : EReal} : Fin' x ↔ ∃ r : ℝ, x = (r : EReal) :=
  ⟨fun h => ⟨x.toReal, (EReal.coe_toReal h.1 h.2).symm⟩, fun ⟨r, h⟩ => h ▸ fin_coe r⟩

theorem fin_add {x y : EReal} (hx : Fin' x) (hy : Fin' y) : Fin' (x + y) := by
  obtain ⟨a, rfl⟩ := fin_iff.mp hx; obtain ⟨b, rfl⟩ := fin_iff.mp hy
  rw [← EReal.coe_add]; exact fin_coe _

theorem fin_mul {x y : EReal} (hx : Fin' x) (hy : Fin' y) : Fin' (x * y) := by
  obtain ⟨a, rfl⟩ := fin_iff.mp hx; obtain ⟨b, rfl⟩ := fin_iff.mp hy
  rw [← EReal.coe_mul]; exact fin_coe _

theorem fin_sum {ι : Type*} (s : Finset ι) (f : ι → EReal) (h : ∀ i, Fin' (f i)) : Fin' (∑ i ∈ s, f i) := by
  obtain ⟨g, hg⟩ := RankFactor.exists_real f h
  rw [Finset.sum_congr rfl fun i _ => hg i, ← RankFactor.coe_sum]; exact fin_coe _

/-! ## The two arrangements -/

/-- Key j of run b at position r: the runs are consecutive stretches of 1024 keys. -/
def tile (b : Fin 4) (r : Fin 1024) : Fin 4096 := ⟨b.val * 1024 + r.val, by omega⟩

/-- A linear layer's entry: row s of x against row f of W, plus the bias. -/
def proj (x : Fin 4096 → Fin 1024 → EReal) (W : Fin 1024 → Fin 1024 → EReal) (b : Fin 1024 → EReal)
    (s : Fin 4096) (f : Fin 1024) : EReal :=
  (∑ e : Fin 1024, x s e * W f e) + b f

/-- The score of query row s against key j. -/
def score (q k : Fin 4096 → Fin 1024 → EReal) (s j : Fin 4096) : EReal := ∑ e : Fin 1024, q s e * k j e

/-- One run's contribution to the mixture at (s, f). -/
def run (q k v : Fin 4096 → Fin 1024 → EReal) (s : Fin 4096) (f : Fin 1024) (b : Fin 4) : EReal :=
  ∑ r : Fin 1024, score q k s (tile b r) * v (tile b r) f

/-- The mixture accumulated run after run onto zero. -/
def mixRuns (q k v : Fin 4096 → Fin 1024 → EReal) (s : Fin 4096) (f : Fin 1024) : EReal :=
  (((0 + run q k v s f 0) + run q k v s f 1) + run q k v s f 2) + run q k v s f 3

/-- The mixture of scores divided by d beforehand, in one sum over all keys. -/
def mixDiv (d : EReal) (q k v : Fin 4096 → Fin 1024 → EReal) (s : Fin 4096) (f : Fin 1024) : EReal :=
  ∑ j : Fin 4096, Ideal.div (score q k s j) d * v j f

/-- A row's maximum, folded from minus infinity. -/
def rowMax (g : Fin 1024 → EReal) : EReal :=
  (Finset.univ : Finset (Fin 1024)).fold max (Ideal.ofBits .f32 0xFF800000#32) g

/-- The softmax of a row at f: exp (g f − max g) over the sum of those exponentials. -/
def rowSoftmax (g : Fin 1024 → EReal) (f : Fin 1024) : EReal :=
  Ideal.div (Ideal.exp (g f - rowMax g)) (∑ f' : Fin 1024, Ideal.exp (g f' - rowMax g))

/-- The first arrangement: scale the accumulated mixture by the pattern of 1/64, then softmax the row. -/
def outRuns (q k v : Fin 4096 → Fin 1024 → EReal) (s : Fin 4096) (f : Fin 1024) : EReal :=
  rowSoftmax (fun f' => mixRuns q k v s f' * Ideal.ofBits .f32 0x3C800000#32) f

/-- The second arrangement: divide the scores by sqrt of the pattern of 4096, mix, softmax the row. -/
def outDiv (q k v : Fin 4096 → Fin 1024 → EReal) (s : Fin 4096) (f : Fin 1024) : EReal :=
  rowSoftmax (mixDiv (Ideal.sqrt (Ideal.ofBits .f32 0x45800000#32)) q k v s) f

/-! ## The law -/

/-- On the reals: four runs of 1024 added onto zero, scaled by 1/64, are the one sum of the terms each scaled. -/
theorem real_runs (S v : Fin 4096 → ℝ) :
    ((((0 + ∑ r : Fin 1024, S (tile 0 r) * v (tile 0 r)) + ∑ r : Fin 1024, S (tile 1 r) * v (tile 1 r))
        + ∑ r : Fin 1024, S (tile 2 r) * v (tile 2 r)) + ∑ r : Fin 1024, S (tile 3 r) * v (tile 3 r)) * (1 / 64)
      = ∑ j : Fin 4096, S j * (1 / 64) * v j := by
  let F : ℕ → ℝ := fun n => if h : n < 4096 then S ⟨n, h⟩ * v ⟨n, h⟩ else 0
  have hrun : ∀ b : Fin 4, ∑ r : Fin 1024, S (tile b r) * v (tile b r) = ∑ j ∈ range 1024, F (b.val * 1024 + j) := by
    intro b
    rw [← Fin.sum_univ_eq_sum_range (fun j => F (b.val * 1024 + j)) 1024]
    refine Finset.sum_congr rfl fun r _ => ?_
    have hb := b.isLt; have hr := r.isLt
    show _ = (if h : b.val * 1024 + r.val < 4096 then _ else _)
    rw [dif_pos (by omega)]; rfl
  have hall : ∑ j : Fin 4096, S j * v j = ∑ n ∈ range (4 * 1024), F n := by
    rw [show 4 * 1024 = 4096 from rfl, ← Fin.sum_univ_eq_sum_range F 4096]
    refine Finset.sum_congr rfl fun j _ => ?_
    show _ = (if h : j.val < 4096 then _ else _)
    rw [dif_pos j.isLt]
  have hR : ∑ j : Fin 4096, S j * (1 / 64) * v j = (∑ j : Fin 4096, S j * v j) * (1 / 64) := by
    rw [Finset.sum_mul]; exact Finset.sum_congr rfl fun j _ => by ring
  rw [hR, hall, Cert.LibRangeSums.sum_range_mul 4 1024 F, hrun 0, hrun 1, hrun 2, hrun 3]
  simp only [Finset.sum_range_succ, Finset.sum_range_zero, Fin.val_zero, Fin.val_one, zero_mul, zero_add]
  rfl

/-- The same on the extended reals, for finite scores and values: scaling the accumulated runs by 1/64 is mixing the
    scores divided by 64. -/
theorem runs_scaled_eq_div (S v : Fin 4096 → EReal) (hS : ∀ j, Fin' (S j)) (hv : ∀ j, Fin' (v j)) :
    ((((0 + ∑ r : Fin 1024, S (tile 0 r) * v (tile 0 r)) + ∑ r : Fin 1024, S (tile 1 r) * v (tile 1 r))
        + ∑ r : Fin 1024, S (tile 2 r) * v (tile 2 r)) + ∑ r : Fin 1024, S (tile 3 r) * v (tile 3 r))
        * ((1 / 64 : ℝ) : EReal)
      = ∑ j : Fin 4096, Ideal.div (S j) ((64 : ℝ) : EReal) * v j := by
  obtain ⟨S', hS'⟩ := RankFactor.exists_real S hS
  obtain ⟨v', hv'⟩ := RankFactor.exists_real v hv
  have hrun : ∀ b : Fin 4, ∑ r : Fin 1024, S (tile b r) * v (tile b r)
      = ((∑ r : Fin 1024, S' (tile b r) * v' (tile b r) : ℝ) : EReal) := by
    intro b
    rw [RankFactor.coe_sum]
    exact Finset.sum_congr rfl fun r _ => by rw [hS', hv', EReal.coe_mul]
  have hdiv : ∀ j, Ideal.div (S j) ((64 : ℝ) : EReal) * v j = ((S' j * (1 / 64) * v' j : ℝ) : EReal) := by
    intro j
    rw [Ideal.div_coe (by norm_num : (64 : ℝ) ≠ 0), hS', hv', EReal.coe_mul, EReal.coe_mul]
  rw [hrun 0, hrun 1, hrun 2, hrun 3, Finset.sum_congr rfl fun j _ => hdiv j, ← RankFactor.coe_sum,
    ← real_runs S' v']
  rw [show (0 : EReal) = ((0 : ℝ) : EReal) from rfl]
  simp only [← EReal.coe_add, ← EReal.coe_mul]

/-- The two arrangements agree when q, k and v are finite. -/
theorem outRuns_eq_outDiv (q k v : Fin 4096 → Fin 1024 → EReal) (hq : ∀ s e, Fin' (q s e)) (hk : ∀ s e, Fin' (k s e))
    (hv : ∀ s e, Fin' (v s e)) (s : Fin 4096) (f : Fin 1024) : outRuns q k v s f = outDiv q k v s f := by
  unfold outRuns outDiv
  refine congrArg (fun g => rowSoftmax g f) (funext fun f' => ?_)
  have hS : ∀ j, Fin' (score q k s j) := fun j => fin_sum _ _ fun e => fin_mul (hq s e) (hk j e)
  unfold mixRuns mixDiv run
  rw [ofBits_inv64, ofBits_4096, sqrt_4096]
  exact runs_scaled_eq_div (score q k s) (fun j => v j f') hS (fun j => hv j f')

/-- A linear layer of finite inputs has finite entries. -/
theorem proj_fin (x : Fin 4096 → Fin 1024 → EReal) (W : Fin 1024 → Fin 1024 → EReal) (b : Fin 1024 → EReal)
    (hx : ∀ s e, Fin' (x s e)) (hW : ∀ f e, Fin' (W f e)) (hb : ∀ f, Fin' (b f)) (s : Fin 4096) (f : Fin 1024) :
    Fin' (proj x W b s f) :=
  fin_add (fin_sum _ _ fun e => fin_mul (hx s e) (hW f e)) (hb f)

end Cert.AttnLaws

end
-- ==== Proof.AttnPayload.lean ====
/-
  The attention kernel's stored values read at coordinates, over the extended reals.

  Per grid point the body adds onto the scratch accumulator the product (q block · k blockᵀ) · v block — at (y, f) the
  sum over the block's 1024 keys r of (∑ e, q (y, e) · k (r, e)) · v (r, f) —, the first point of a row of points having
  stored zeros there; at the last point of the row it scales the accumulator by the pattern of 1/64 and stores the
  softmax of each row: exp (x − row maximum) over the row's sum of those exponentials.
-/
import proofs.«120050_j80977313399765_2_alg».proof.Proof.Gen.KernelIdeal.Skeleton
import proofs.«120050_j80977313399765_2_alg».proof.Proof.LibColumnBlocks
import proofs.«120050_j80977313399765_2_alg».proof.Proof.LibRowDot
import proofs.«120050_j80977313399765_2_alg».proof.Proof.LibRowOps
import proofs.«120050_j80977313399765_2_alg».proof.Proof.LibRowMax
import proofs.«120050_j80977313399765_2_alg».proof.Proof.AttnLaws
import Idealize.ShloMosaic.Lib.ValueIdx
import Idealize.ShloMosaic.Lib.Pipeline.Value
import Idealize.ShloMosaic.PureOps.Ideal.Laws

noncomputable section

namespace Cert.KernelIdeal.AttnValue

open Cert.KernelIdeal Cert.KernelIdeal.Gen Idealize.ShloMosaic Idealize.ShloMosaic.ValueIdx Cert.AttnLaws

/-- q · kᵀ: the left operand index keeps the result's row. -/
theorem dotQK_lhs0 (j : S512x1024.Idx) (k : dot_S512x1024_S1024x1024_S512x1024_1_1_0_0_n_n.contr.Idx) :
    (dot_S512x1024_S1024x1024_S512x1024_1_1_0_0_n_n.lhsIdx j k 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl

/-- q · kᵀ: the right operand's row is the result's column (the key). -/
theorem dotQK_rhs0 (j : S512x1024.Idx) (k : dot_S512x1024_S1024x1024_S512x1024_1_1_0_0_n_n.contr.Idx) :
    (dot_S512x1024_S1024x1024_S512x1024_1_1_0_0_n_n.rhsIdx j k 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- scores · v: the left operand index keeps the result's row. -/
theorem dotPV_lhs0 (j : S512x1024.Idx) (k : dot_S512x1024_S1024x1024_S512x1024_1_0_0_1_n_n.contr.Idx) :
    (dot_S512x1024_S1024x1024_S512x1024_1_0_0_1_n_n.lhsIdx j k 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- scores · v: the right operand index keeps the result's column. -/
theorem dotPV_rhs1 (j : S512x1024.Idx) (k : dot_S512x1024_S1024x1024_S512x1024_1_0_0_1_n_n.contr.Idx) :
    (dot_S512x1024_S1024x1024_S512x1024_1_0_0_1_n_n.rhsIdx j k 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block of zeros the first point of a row stores. -/
theorem pay1_apply (i : S512x1024.Idx) : k1_pay1 (F := Ideal) i = 0 := by
  unfold k1_pay1
  simp only [shapeCast_self]
  exact Ideal.ofBits_zero_f32

/-- The accumulator after a point, at (y, f): what it held plus the block's contribution. -/
theorem pay2_apply (x0 : FVec Ideal S512x1024 .bf16) (x1 : FVec Ideal S1024x1024 .bf16) (xs : FVec Ideal S512x1024 .f32)
    (x2 : FVec Ideal S1024x1024 .bf16) (y : Fin 512) (f : Fin 1024) :
    k1_pay2 (F := Ideal) x0 x1 xs x2 (ix2 y f)
      = xs (ix2 y f) + ∑ r : Fin 1024, (∑ e : Fin 1024, x0 (ix2 y e) * x1 (ix2 r e)) * x2 (ix2 r f) := by
  unfold k1_pay2
  simp only [shapeCast_self]
  rw [addf_apply]
  refine congrArg (xs (ix2 y f) + ·) ?_
  refine (Cert.LibColumnBlocks.matmul_zero_apply (φ₁ := .bf16) (φ₂ := .bf16) dot_S512x1024_S1024x1024_S512x1024_1_0_0_1_n_n rfl rfl rfl rfl
      dotPV_lhs0 dotPV_rhs1 _ x2 y f none).trans (Finset.sum_congr rfl fun r _ => congrArg (· * x2 (ix2 r f)) ?_)
  rw [truncf_apply]
  exact Cert.LibRowDot.matmul_zero_apply (φ₁ := .bf16) (φ₂ := .bf16) dot_S512x1024_S1024x1024_S512x1024_1_1_0_0_n_n rfl rfl rfl rfl
      dotQK_lhs0 dotQK_rhs0 x0 x1 y r none

/-- The softmax of a [512, 1024] block's rows as the body spells it — a row maximum from the pattern of minus infinity,
    recast as a column and stretched back, subtracted, exponentiated, the row sums likewise, the quotient — at (y, f). -/
theorem softmax_block (sc : FVec Ideal S512x1024 .f32) (h1 : S512x1024.Reduces [1] S512) (h2 : S512.ShapeCasts S512x1)
    (h3 : S512x1.Broadcasts S512x1024) (hφ : FKind.Formats .f32) (hm : (0xFF800000#32 : BitVec 32) = 0xFF800000#32)
    (hz : (0x00000000#32 : BitVec 32) = 0x00000000#32) (y : Fin 512) (f : Fin 1024) :
    divf (exp (subf sc (broadcastTo S512x1024 (shapeCast S512x1 (multiReduction .maximumf [1] S512 sc 0xFF800000#32 h1 hφ hm) h2) h3)))
        (broadcastTo S512x1024 (shapeCast S512x1 (multiReduction .add [1] S512
          (exp (subf sc (broadcastTo S512x1024 (shapeCast S512x1 (multiReduction .maximumf [1] S512 sc 0xFF800000#32 h1 hφ hm) h2) h3)))
          0x00000000#32 h1 hφ hz) h2) h3) (ix2 y f)
      = rowSoftmax (fun f' => sc (ix2 y f')) f := by
  have hmax : ∀ f' : Fin 1024, (broadcastTo S512x1024 (shapeCast S512x1 (multiReduction .maximumf [1] S512 sc 0xFF800000#32 h1 hφ hm) h2) h3) (ix2 y f')
      = rowMax (fun k => sc (ix2 y k)) := fun f' =>
    (Cert.LibRowOps.bcast_a1_ab _ h3 y f').trans ((Cert.LibRowOps.cast_a_a1 _ h2 y 0).trans (Cert.LibRowMax.max_last2 sc h1 hφ hm y))
  have hexp : ∀ f' : Fin 1024, (exp (subf sc (broadcastTo S512x1024 (shapeCast S512x1 (multiReduction .maximumf [1] S512 sc 0xFF800000#32 h1 hφ hm) h2) h3))) (ix2 y f')
      = Ideal.exp (sc (ix2 y f') - rowMax (fun k => sc (ix2 y k))) := fun f' => by
    show Ideal.exp (sc (ix2 y f') - _) = _
    rw [hmax f']
  rw [divf_apply]
  unfold rowSoftmax
  refine congrArg₂ Ideal.div (hexp f) ?_
  refine (Cert.LibRowOps.bcast_a1_ab _ h3 y f).trans ((Cert.LibRowOps.cast_a_a1 _ h2 y 0).trans ?_)
  refine (Cert.LibRowOps.sum_last2 _ h1 hφ hz y).trans (Finset.sum_congr rfl fun f' _ => hexp f')

/-- What the last point of a row stores, at (y, f): the softmax of the accumulator's row scaled by the pattern of 1/64. -/
theorem pay3_apply (acc : FVec Ideal S512x1024 .f32) (y : Fin 512) (f : Fin 1024) :
    k1_pay3 (F := Ideal) acc (ix2 y f) = rowSoftmax (fun f' => acc (ix2 y f') * Ideal.ofBits .f32 0x3C800000#32) f := by
  unfold k1_pay3
  exact softmax_block _ _ _ _ _ _ _ y f

end Cert.KernelIdeal.AttnValue

end
-- ==== Proof.AttnArrays.lean ====
/-
  The attention region's output array in closed form, over the extended reals, at any region-entry contents `V`.

  The region walks a grid of 8 x 4 points: point t works on the row tile t / 4 of 512 query rows and on the key tile
  t % 4 of 1024 keys. At the first key tile the accumulator is zeroed and the tile's contribution added onto the zeros; at
  each later tile the contribution is added onto what the point before left; so after point t the accumulator holds, at
  (y, f), the runs of keys 0 … t % 4 added one after the other onto zero, for the query row 512 (t / 4) + y. At the last
  key tile the softmax of the accumulator's rows scaled by the pattern of 1/64 is stored to the output block, which is
  written back there and only there: the eight blocks written back tile the [4096, 1024] output, which therefore holds
  at (s, f) the softmax of the scaled accumulated mixture of row s.
-/
import proofs.«120050_j80977313399765_2_alg».proof.Proof.IdealRegion1
import proofs.«120050_j80977313399765_2_alg».proof.Proof.AttnPayload
import proofs.«120050_j80977313399765_2_alg».proof.Proof.AttnLaws
import Idealize.ShloMosaic.Lib.Pipeline.Value
import Idealize.ShloMosaic.Lib.ValueIdx
import Idealize.ShloMosaic.Lib.Tactic

set_option maxRecDepth 16384

noncomputable section

namespace Cert.KernelIdeal.AttnValue

open Cert.KernelIdeal Cert.KernelIdeal.Gen Cert.KernelIdeal.Hand Cert.AttnLaws Idealize.ShloMosaic Idealize.ShloMosaic.ValueIdx Idealize.ShloMosaic.TcCoe Idealize.SL.Sem
open Idealize.ShloMosaic.Tactic
open Idealize.ShloMosaic.Pipeline (Dat)

/-! ## What each case of the body leaves, as a term of the payloads (at any `F`) -/

section Cases

variable {F : FTy → Type} [FloatOps F]

/-- The zero offsets of a whole-block access. -/
theorem hz2 : (![0, 0] : Fin 2 → Nat) = fun _ => 0 := funext fun a => by fin_cases a <;> rfl

/-- The first point of a row of points zeroes the accumulator and adds the point's contribution onto the zeros. -/
theorem soutA_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .bf16) (x2 : Vec F S1024x1024 .bf16) :
    sout1_A_0 c i arg2 harg2 arg3 harg3 arg4 harg4 arg5 harg5 arg6 harg6 hc0 hc1 x0 x1 x2 = k1_pay2 x0 x1 (k1_pay1 (F := F)) x2 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero hz2]
  simp only [View.readAt_eq_ld, harg2.read_unread, harg3.read_unread, harg4.read_unread, View.readCov_unit_zero (S := S512x1024) _ hz2, View.ld_unit_zero (S := S512x1024) hz2, View.ld_unit_zero (S := S1024x1024) hz2]

/-- A middle point adds its contribution onto what the accumulator held. -/
theorem soutB_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .bf16) (x2 : Vec F S1024x1024 .bf16) (xs0 : Vec F S512x1024 .f32) :
    sout1_B_0 c i arg2 harg2 arg3 harg3 arg4 harg4 arg5 harg5 arg6 harg6 hc0 hc1 x0 x1 x2 xs0 = k1_pay2 x0 x1 xs0 x2 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  try sl_unfold_words
  rw [View.canon_unit_zero hz2]
  simp only [View.readAt_eq_ld, harg2.read_unread, harg3.read_unread, harg4.read_unread, harg6.read_unread, View.ld_unit_zero (S := S512x1024) hz2, View.ld_unit_zero (S := S1024x1024) hz2]

/-- The last point of a row of points adds its contribution likewise, -/
theorem soutC_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .bf16) (x2 : Vec F S1024x1024 .bf16) (xs0 : Vec F S512x1024 .f32) :
    sout1_C_0 c i arg2 harg2 arg3 harg3 arg4 harg4 arg5 harg5 arg6 harg6 hc0 hc1 x0 x1 x2 xs0 = k1_pay2 x0 x1 xs0 x2 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero hz2]
  simp only [View.readAt_eq_ld, harg2.read_unread, harg3.read_unread, harg4.read_unread, harg6.read_unread, View.ld_unit_zero (S := S512x1024) hz2, View.ld_unit_zero (S := S1024x1024) hz2]

/-- and stores to the output the epilogue of the accumulator it has just written. -/
theorem outC_eq (c : Dev nD) (i : grid1.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .bf16) (x2 : Vec F S1024x1024 .bf16) (xs0 : Vec F S512x1024 .f32) :
    out1_C_3 c i arg2 harg2 arg3 harg3 arg4 harg4 arg5 harg5 arg6 harg6 hc0 hc1 x0 x1 x2 xs0 = k1_pay3 (k1_pay2 x0 x1 xs0 x2) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero hz2, View.readCov_unit_zero (S := S512x1024) _ hz2]
  simp only [View.readAt_eq_ld, harg2.read_unread, harg3.read_unread, harg4.read_unread, harg6.read_unread, View.ld_unit_zero (S := S512x1024) hz2, View.ld_unit_zero (S := S1024x1024) hz2]

end Cases

/-! ## The blocks the windows hand the body, as rows of the region's arrays (at the extended reals) -/

variable (V : (c : Dev nD) → (b : Ref sig .tc) → Buf (Elt Ideal) ((c : Thread nD τ).loc b))

/-- The windows' block indices at point `t`, decided over the grid's 32 points: the query rows' and the output's block
    is `t / 4`, the keys' and the values' block is `t % 4`; no window moves along the features. -/
theorem index1 : ∀ t : Fin grid1.N, (win1_0.index t 0 = t.val / 4 ∧ win1_0.index t 1 = 0) ∧ (win1_1.index t 0 = t.val % 4 ∧ win1_1.index t 1 = 0)
    ∧ (win1_2.index t 0 = t.val % 4 ∧ win1_2.index t 1 = 0) ∧ (win1_3.index t 0 = t.val / 4 ∧ win1_3.index t 1 = 0) := by decide +kernel

/-- Window 0's block at point `t` is rows `512 (t / 4) …` of the queries' array. -/
theorem iblk_q (c : Dev nD) (t : Fin cfg1.N) (y : Fin 512) (e : Fin 1024) (s : Fin 4096) (hs : s.val = 512 * (t.val / 4) + y.val) :
    (iblk1 V c 0 t : FVec Ideal S512x1024 .bf16) (ix2 y e) = V c main_v12_0 (ix2 s e) := by
  have hi := (index1 t).1
  unfold iblk1
  rw [View.read_apply]
  show V c main_v12_0 _ = V c main_v12_0 _
  congr 1
  funext a
  apply Fin.ext
  match a with
  | ⟨0, _⟩ => show win1_0.index t 0 * 512 + 1 * y.val = s.val; rw [hi.1, hs]; omega
  | ⟨1, _⟩ => show win1_0.index t 1 * 1024 + 1 * e.val = e.val; rw [hi.2]; omega

/-- Window 1's block at point `t` is rows `1024 (t % 4) …` of the keys' array. -/
theorem iblk_k (c : Dev nD) (t : Fin cfg1.N) (r : Fin 1024) (e : Fin 1024) (j : Fin 4096) (hj : j.val = (t.val % 4) * 1024 + r.val) :
    (iblk1 V c 1 t : FVec Ideal S1024x1024 .bf16) (ix2 r e) = V c main_v12_1 (ix2 j e) := by
  have hi := (index1 t).2.1
  unfold iblk1
  rw [View.read_apply]
  show V c main_v12_1 _ = V c main_v12_1 _
  congr 1
  funext a
  apply Fin.ext
  match a with
  | ⟨0, _⟩ => show win1_1.index t 0 * 1024 + 1 * r.val = j.val; rw [hi.1, hj]; omega
  | ⟨1, _⟩ => show win1_1.index t 1 * 1024 + 1 * e.val = e.val; rw [hi.2]; omega

/-- Window 2's block at point `t` is rows `1024 (t % 4) …` of the values' array. -/
theorem iblk_v (c : Dev nD) (t : Fin cfg1.N) (r : Fin 1024) (f : Fin 1024) (j : Fin 4096) (hj : j.val = (t.val % 4) * 1024 + r.val) :
    (iblk1 V c 2 t : FVec Ideal S1024x1024 .bf16) (ix2 r f) = V c main_v12_2 (ix2 j f) := by
  have hi := (index1 t).2.2.1
  unfold iblk1
  rw [View.read_apply]
  show V c main_v12_2 _ = V c main_v12_2 _
  congr 1
  funext a
  apply Fin.ext
  match a with
  | ⟨0, _⟩ => show win1_2.index t 0 * 1024 + 1 * r.val = j.val; rw [hi.1, hj]; omega
  | ⟨1, _⟩ => show win1_2.index t 1 * 1024 + 1 * f.val = f.val; rw [hi.2]; omega

/-! ## The accumulator after each point -/

/-- The queries, keys and values as the region finds them, by row and feature. -/
abbrev qOf (c : Dev nD) : Fin 4096 → Fin 1024 → EReal := fun s e => V c main_v12_0 (ix2 s e)
abbrev kOf (c : Dev nD) : Fin 4096 → Fin 1024 → EReal := fun s e => V c main_v12_1 (ix2 s e)
abbrev vOf (c : Dev nD) : Fin 4096 → Fin 1024 → EReal := fun s e => V c main_v12_2 (ix2 s e)

/-- The runs of keys `0 … b` added one after the other onto zero. -/
def accUpTo (q k v : Fin 4096 → Fin 1024 → EReal) (s : Fin 4096) (f : Fin 1024) : ℕ → EReal
  | 0 => 0 + run q k v s f 0
  | b + 1 => accUpTo q k v s f b + run q k v s f ⟨(b + 1) % 4, Nat.mod_lt _ (by decide)⟩

/-- All four runs: the accumulated mixture. -/
theorem accUpTo_three (q k v : Fin 4096 → Fin 1024 → EReal) (s : Fin 4096) (f : Fin 1024) : accUpTo q k v s f 3 = mixRuns q k v s f := rfl

/-- One point's contribution at (y, f), from blocks that are rows of the arrays and an accumulator
    holding `a` there: `a` plus the run of the point's keys. -/
theorem pay2_run (q k v : Fin 4096 → Fin 1024 → EReal) (x0 : FVec Ideal S512x1024 .bf16) (x1 : FVec Ideal S1024x1024 .bf16) (xs : FVec Ideal S512x1024 .f32)
    (x2 : FVec Ideal S1024x1024 .bf16) (y : Fin 512) (f : Fin 1024) (s : Fin 4096) (b : Fin 4)
    (a : EReal) (hxs : xs (ix2 y f) = a)
    (hq : ∀ e, x0 (ix2 y e) = q s e) (hk : ∀ r e, x1 (ix2 r e) = k (tile b r) e) (hv : ∀ r f, x2 (ix2 r f) = v (tile b r) f) :
    k1_pay2 (F := Ideal) x0 x1 xs x2 (ix2 y f) = a + run q k v s f b := by
  rw [pay2_apply, hxs]
  refine congrArg (a + ·) ?_
  unfold run score
  refine Finset.sum_congr rfl fun r _ => ?_
  rw [hv r f]
  refine congrArg (· * v (tile b r) f) ?_
  refine Finset.sum_congr rfl fun e _ => ?_
  rw [hq e, hk r e]

/-- THE INVARIANT. After point `n` the accumulator holds, at (y, f), the runs of keys `0 … n % 4` added one after the other
    onto zero, for the query row `512 (n / 4) + y`: by induction on the point, through the three cases. -/
theorem scratch_at (c : Dev nD) : ∀ (n : ℕ) (hn : n < cfg1.N) (y : Fin 512) (f : Fin 1024) (s : Fin 4096), s.val = 512 * (n / 4) + y.val →
    ((outsAt1 V c n hn).2 : FVec Ideal S512x1024 .f32) (ix2 y f) = accUpTo (qOf V c) (kOf V c) (vOf V c) s f (n % 4) := by
  intro n
  induction n with
  | zero =>
    intro hn y f s hs
    refine (congrArg (fun p : Vec Ideal S512x1024 .f32 × Vec Ideal S512x1024 .f32 => (p.2 : FVec Ideal S512x1024 .f32) (ix2 y f))
      (outsAt1_A V c ⟨0, hn⟩ rfl (by show ¬0 % 4 = 3; decide))).trans ?_
    dsimp only
    rw [soutA_eq]
    exact pay2_run (qOf V c) (kOf V c) (vOf V c) _ _ _ _ y f s 0 0 (pay1_apply _)
      (fun e => iblk_q V c ⟨0, hn⟩ y e s hs) (fun r e => iblk_k V c ⟨0, hn⟩ r e (tile 0 r) rfl) (fun r f => iblk_v V c ⟨0, hn⟩ r f (tile 0 r) rfl)
  | succ n ih =>
    intro hn y f s hs
    have hN : n + 1 < 32 := lt_of_lt_of_eq hn (show cfg1.N = 32 from N_1)
    by_cases h0 : (n + 1) % 4 = 0
    · refine (congrArg (fun p : Vec Ideal S512x1024 .f32 × Vec Ideal S512x1024 .f32 => (p.2 : FVec Ideal S512x1024 .f32) (ix2 y f))
        (outsAt1_A V c ⟨n + 1, hn⟩ h0 (by show ¬(n + 1) % 4 = 3; omega))).trans ?_
      dsimp only
      rw [soutA_eq, h0]
      exact pay2_run (qOf V c) (kOf V c) (vOf V c) _ _ _ _ y f s 0 0 (pay1_apply _)
        (fun e => iblk_q V c ⟨n + 1, hn⟩ y e s hs)
        (fun r e => iblk_k V c ⟨n + 1, hn⟩ r e (tile 0 r) (by show 0 * 1024 + r.val = (n + 1) % 4 * 1024 + r.val; omega))
        (fun r f => iblk_v V c ⟨n + 1, hn⟩ r f (tile 0 r) (by show 0 * 1024 + r.val = (n + 1) % 4 * 1024 + r.val; omega))
    · have hb : (n + 1) % 4 = n % 4 + 1 := by omega
      have hprev := ih (Nat.lt_of_succ_lt hn) y f s (by omega)
      by_cases h1 : (n + 1) % 4 = 3
      · refine (congrArg (fun p : Vec Ideal S512x1024 .f32 × Vec Ideal S512x1024 .f32 => (p.2 : FVec Ideal S512x1024 .f32) (ix2 y f))
          (outsAt1_C V c ⟨n + 1, hn⟩ h0 h1)).trans ?_
        dsimp only
        rw [soutC_eq, hb]
        exact pay2_run (qOf V c) (kOf V c) (vOf V c) _ _ _ _ y f s ⟨(n % 4 + 1) % 4, Nat.mod_lt _ (by decide)⟩ _ hprev
          (fun e => iblk_q V c ⟨n + 1, hn⟩ y e s hs)
          (fun r e => iblk_k V c ⟨n + 1, hn⟩ r e (tile ⟨(n % 4 + 1) % 4, Nat.mod_lt _ (by decide)⟩ r) (by show (n % 4 + 1) % 4 * 1024 + r.val = (n + 1) % 4 * 1024 + r.val; omega))
          (fun r f => iblk_v V c ⟨n + 1, hn⟩ r f (tile ⟨(n % 4 + 1) % 4, Nat.mod_lt _ (by decide)⟩ r) (by show (n % 4 + 1) % 4 * 1024 + r.val = (n + 1) % 4 * 1024 + r.val; omega))
      · refine (congrArg (fun p : Vec Ideal S512x1024 .f32 × Vec Ideal S512x1024 .f32 => (p.2 : FVec Ideal S512x1024 .f32) (ix2 y f))
          (outsAt1_B V c ⟨n + 1, hn⟩ h0 h1)).trans ?_
        dsimp only
        rw [soutB_eq, hb]
        exact pay2_run (qOf V c) (kOf V c) (vOf V c) _ _ _ _ y f s ⟨(n % 4 + 1) % 4, Nat.mod_lt _ (by decide)⟩ _ hprev
          (fun e => iblk_q V c ⟨n + 1, hn⟩ y e s hs)
          (fun r e => iblk_k V c ⟨n + 1, hn⟩ r e (tile ⟨(n % 4 + 1) % 4, Nat.mod_lt _ (by decide)⟩ r) (by show (n % 4 + 1) % 4 * 1024 + r.val = (n + 1) % 4 * 1024 + r.val; omega))
          (fun r f => iblk_v V c ⟨n + 1, hn⟩ r f (tile ⟨(n % 4 + 1) % 4, Nat.mod_lt _ (by decide)⟩ r) (by show (n % 4 + 1) % 4 * 1024 + r.val = (n + 1) % 4 * 1024 + r.val; omega))

/-! ## The output block at the last point of a row of points, and the array after the region -/

/-- At a point whose key tile is the last one the output's staging buffer holds, at (y, f), the softmax of the scaled
    accumulated mixture of the query row `512 (t / 4) + y`. -/
theorem out_at (c : Dev nD) (t : Fin cfg1.N) (h1 : t.val % 4 = 3) (y : Fin 512) (f : Fin 1024) (s : Fin 4096) (hs : s.val = 512 * (t.val / 4) + y.val) :
    ((outsAt1 V c t.val t.isLt).1 : FVec Ideal S512x1024 .f32) (ix2 y f) = outRuns (qOf V c) (kOf V c) (vOf V c) s f := by
  have h0 : ¬t.val % 4 = 0 := by omega
  have e1 : (outsAt1 V c t.val t.isLt).1 = k1_pay3 (F := Ideal) ((outsAt1 V c t.val t.isLt).2) := by
    rw [outsAt1_C V c t h0 h1]; dsimp only; rw [outC_eq, soutC_eq]
  rw [e1, pay3_apply]
  unfold outRuns
  refine congrArg (fun g => rowSoftmax g f) (funext fun f' => ?_)
  rw [scratch_at V c t.val t.isLt y f' s hs, h1, accUpTo_three]

/-- The output array the region leaves: at row s and feature f the softmax of the scaled accumulated mixture. -/
def G1_3 (c : Dev nD) : Buf (Elt Ideal) ((cfg1.win 3).arr.view.loc (c.tc : Thread nD τ)) :=
  fun i => outRuns (qOf V c) (kOf V c) (vOf V c) ⟨(i 0).val, (i 0).isLt⟩ ⟨(i 1).val, (i 1).isLt⟩

/-- What a write-back of the output window writes (they happen at the points `t % 4 = 3`) is block `t / 4` of `G1_3`. -/
theorem flushed_eq (c : Dev nD) (t : Fin cfg1.N) (hf : (cfg1.win 3).flush t = true) :
    (dat1 V c).flushed 3 t = ((cfg1.win 3).blk t).view.read (Elt Ideal) (G1_3 V c) := by
  have h1 : t.val % 4 = 3 := (flush1_3 t).mp hf
  have hN : t.val < 32 := lt_of_lt_of_eq t.isLt (show cfg1.N = 32 from N_1)
  have hi := (index1 t).2.2.2
  show (cfg1.win 3).cut (grid1.coords t) ((dat1 V c).after 3 t) = _
  rw [after1_3]
  refine funext fun (x : S512x1024.Idx) => ?_
  rw [View.read_apply]
  obtain ⟨y, f, rfl⟩ : ∃ (y : Fin 512) (f : Fin 1024), x = ix2 y f := ⟨x 0, x 1, eq_ix2 x⟩
  show ((outsAt1 V c t.val t.isLt).1 : FVec Ideal S512x1024 .f32) (ix2 y f) = G1_3 V c _
  rw [out_at V c t h1 y f ⟨512 * (t.val / 4) + y.val, by omega⟩ rfl]
  unfold G1_3
  show outRuns _ _ _ _ _ = outRuns _ _ _ _ _
  congr 1 <;> apply Fin.ext
  · show 512 * (t.val / 4) + y.val = win1_3.index t 0 * 512 + 1 * y.val; rw [hi.1]; omega
  · show f.val = win1_3.index t 1 * 1024 + 1 * f.val; rw [hi.2]; omega

/-- THE OUTPUT ARRAY after the region: the eight blocks written back cover it, so it holds `G1_3`. -/
theorem final1_3 (c : Dev nD) : (dat1 V c).arrAt 3 cfg1.N = fun i => outRuns (fun s e => V c main_v12_0 (ix2 s e)) (fun s e => V c main_v12_1 (ix2 s e)) (fun s e => V c main_v12_2 (ix2 s e)) ⟨(i 0).val, (i 0).isLt⟩ ⟨(i 1).val, (i 1).isLt⟩ :=
  (dat1 V c).arrAt_eq_of_cover 3 (G1_3 V c) (flushed_eq V c) fun i => by
    have h0 : (i 0 : Nat) < 4096 := (i 0).isLt
    have h1 : (i 1 : Nat) < 1024 := (i 1).isLt
    have ht : 4 * ((i 0 : Nat) / 512) + 3 < cfg1.N := by rw [show cfg1.N = 32 from N_1]; omega
    refine ⟨⟨4 * ((i 0 : Nat) / 512) + 3, ht⟩, (flush1_3 _).mpr (by show (4 * ((i 0 : Nat) / 512) + 3) % 4 = 3; omega), ?_⟩
    have hi := (index1 ⟨4 * ((i 0 : Nat) / 512) + 3, ht⟩).2.2.2
    show i ∈ ((View.whole main_v13).slice (win1_3.rect ⟨4 * ((i 0 : Nat) / 512) + 3, ht⟩)).set
    rw [View.set_slice_whole, Rect.mem_set_unit]
    intro a
    match a with
    | ⟨0, _⟩ =>
      show win1_3.index ⟨4 * ((i 0 : Nat) / 512) + 3, ht⟩ 0 * 512 ≤ (i 0 : Nat) ∧ (i 0 : Nat) < win1_3.index ⟨4 * ((i 0 : Nat) / 512) + 3, ht⟩ 0 * 512 + 512
      rw [hi.1]; show (4 * ((i 0 : Nat) / 512) + 3) / 4 * 512 ≤ (i 0 : Nat) ∧ (i 0 : Nat) < (4 * ((i 0 : Nat) / 512) + 3) / 4 * 512 + 512; omega
    | ⟨1, _⟩ =>
      show win1_3.index ⟨4 * ((i 0 : Nat) / 512) + 3, ht⟩ 1 * 1024 ≤ (i 1 : Nat) ∧ (i 1 : Nat) < win1_3.index ⟨4 * ((i 0 : Nat) / 512) + 3, ht⟩ 1 * 1024 + 1024
      rw [hi.2]; omega

end Cert.KernelIdeal.AttnValue

end
-- ==== Proof.LibThreeBlocks.lean ====
/-
  Three matrices of equal height set side by side, read at coordinates.

  The concatenation `[x0 | x1 | x2]` along the column axis reads, at `(a, b)`, the block that column `b` falls in, at
  `(a, b - the widths before it)`. The three cases are stated one by one, and once more as a single equation: row `a`
  of the concatenation is the row `row3` made of row `a` of each block.
-/
import Idealize.ShloMosaic.Lib.ValueIdx
import Idealize.ShloMosaic.Lib.Pipeline.Value

namespace Cert.LibThreeBlocks

open Idealize.ShloMosaic Idealize.ShloMosaic.ValueIdx

variable {α : Type}

/-- Three rows of widths `w0`, `w1`, `w2` set side by side, as one row of width `B = w0 + w1 + w2`. -/
def row3 {w0 w1 w2 B : ℕ} (hB : w0 + w1 + w2 = B) (r0 : Fin w0 → α) (r1 : Fin w1 → α) (r2 : Fin w2 → α) (k : Fin B) : α :=
  if h0 : k.val < w0 then r0 ⟨k.val, h0⟩
  else if h1 : k.val < w0 + w1 then r1 ⟨k.val - w0, by omega⟩
  else r2 ⟨k.val - (w0 + w1), by have := k.isLt; omega⟩

/-- `row3` of rows that agree entry by entry. -/
theorem row3_congr {w0 w1 w2 B : ℕ} (hB : w0 + w1 + w2 = B) {r0 r0' : Fin w0 → α} {r1 r1' : Fin w1 → α} {r2 r2' : Fin w2 → α}
    (h0 : ∀ k, r0 k = r0' k) (h1 : ∀ k, r1 k = r1' k) (h2 : ∀ k, r2 k = r2' k) :
    row3 hB r0 r1 r2 = row3 hB r0' r1' r2' := by
  obtain rfl := funext h0
  obtain rfl := funext h1
  obtain rfl := funext h2
  rfl

section Three
variable {A w0 w1 w2 B : ℕ}
  (x0 : (⟨2, ![A, w0]⟩ : Shape).Idx → α) (x1 : (⟨2, ![A, w1]⟩ : Shape).Idx → α)
  (x2 : (⟨2, ![A, w2]⟩ : Shape).Idx → α)
  (h : Shape.Concatenates [⟨2, ![A, w0]⟩, ⟨2, ![A, w1]⟩, ⟨2, ![A, w2]⟩] ⟨2, ![A, B]⟩ 1)
  (a : Fin A) (b : Fin B)

/-- `[x0 | x1 | x2]` at a column of the first block. -/
theorem cat3_0 (hb : b.val < w0) :
    concatenate ⟨2, ![A, B]⟩ 1 [⟨⟨2, ![A, w0]⟩, x0⟩, ⟨⟨2, ![A, w1]⟩, x1⟩, ⟨⟨2, ![A, w2]⟩, x2⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat3_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat3_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- Row `a` of `[x0 | x1 | x2]` is row `a` of each block, set side by side. -/
theorem cat3_apply (hB : w0 + w1 + w2 = B) :
    concatenate ⟨2, ![A, B]⟩ 1 [⟨⟨2, ![A, w0]⟩, x0⟩, ⟨⟨2, ![A, w1]⟩, x1⟩, ⟨⟨2, ![A, w2]⟩, x2⟩] h (ix2 a b)
      = row3 hB (fun k => x0 (ix2 a k)) (fun k => x1 (ix2 a k)) (fun k => x2 (ix2 a k)) b := by
  unfold row3
  have hlt := b.isLt
  by_cases h0 : b.val < w0
  · rw [dif_pos h0]; exact cat3_0 x0 x1 x2 h a b h0
  · rw [dif_neg h0]
    by_cases h1 : b.val < w0 + w1
    · rw [dif_pos h1]; exact cat3_1 x0 x1 x2 h a b (by omega) (by omega)
    · rw [dif_neg h1]; exact cat3_2 x0 x1 x2 h a b (by omega) (by omega)

end Three

end Cert.LibThreeBlocks
-- ==== Proof.HostPrefix.lean ====
/-
  What the host operations before the first kernel leave in the three arrays it stages, read at coordinates over the
  extended reals: x itself (the change of float format is the identity); the [1024, 3072] matrix whose three column blocks
  are the transposed weights, so that its entry (e, c) is Wq (c, e), Wk (c − 1024, e) or Wv (c − 2048, e); and the one-row
  bias whose three blocks are bq, bk, bv. A linear layer read off those arrays is then x · Wᵀ + b of the arguments.
-/
import proofs.«120050_j80977313399765_2_alg».proof.Proof.Gen.KernelIdeal.Launch
import proofs.«120050_j80977313399765_2_alg».proof.Proof.QkvArrays
import proofs.«120050_j80977313399765_2_alg».proof.Proof.LibThreeBlocks
import proofs.«120050_j80977313399765_2_alg».proof.Proof.AttnLaws
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostValue

open Cert.KernelIdeal Cert.KernelIdeal.Gen Cert.KernelIdeal.QkvValue Cert.AttnLaws
open Idealize.ShloMosaic Idealize.ShloMosaic.ValueIdx Idealize.ShloMosaic.TcCoe Idealize.SL.Sem Idealize.ShloMosaic.StableHlo

/-- A three-operand operation's result at its own buffer: its function of the three operands' contents. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

variable (W : Valuation τ sig (Elt Ideal))

/-- The staged x: the argument, its float format changed. -/
theorem host_x : (StableHlo.after (hostOps0 (F := Ideal)) W (Proc.devRef .tc main_v11) : FVec Ideal S4096x1024 .bf16)
    = truncf (F := Ideal) .bf16 (W (Proc.devRef .tc main_arg0) : FVec Ideal S4096x1024 .f32) bitsLt_bf16_f32 := by
  after_results

/-- The fused matrix: the three transposed weights side by side. -/
theorem host_w : (StableHlo.after (hostOps0 (F := Ideal)) W (Proc.devRef .tc main_v6) : FVec Ideal S1024x3072 .bf16)
    = concatenate S1024x3072 1
        [⟨S1024x1024, truncf (F := Ideal) .bf16 (transpose S1024x1024 [1, 0] (W (Proc.devRef .tc main_arg1) : FVec Ideal S1024x1024 .f32) transposes_S1024x1024_S1024x1024_1_0) bitsLt_bf16_f32⟩,
         ⟨S1024x1024, truncf (F := Ideal) .bf16 (transpose S1024x1024 [1, 0] (W (Proc.devRef .tc main_arg3) : FVec Ideal S1024x1024 .f32) transposes_S1024x1024_S1024x1024_1_0) bitsLt_bf16_f32⟩,
         ⟨S1024x1024, truncf (F := Ideal) .bf16 (transpose S1024x1024 [1, 0] (W (Proc.devRef .tc main_arg5) : FVec Ideal S1024x1024 .f32) transposes_S1024x1024_S1024x1024_1_0) bitsLt_bf16_f32⟩]
        concatenates_S1024x1024_S1024x1024_S1024x1024_S1024x3072_d1 := by
  simp only [after_cons, after_nil]
  repeat (first | (rw [unary_result_ne]; rotate_left; decide) | (rw [reshape_result_ne]; rotate_left; decide) | (rw [nary_result_ne]; rotate_left; decide))
  rw [nary3_result]
  repeat (first
    | rw [unary_result] | rw [reshape_result]
    | (rw [unary_result_ne]; rotate_left; decide)
    | (rw [reshape_result_ne]; rotate_left; decide)
    | (rw [nary_result_ne]; rotate_left; decide))
  rfl

/-- The fused bias: the three biases, each recast as one row, side by side. -/
theorem host_b : (StableHlo.after (hostOps0 (F := Ideal)) W (Proc.devRef .tc main_v10) : FVec Ideal S1x3072 .f32)
    = concatenate S1x3072 1
        [⟨S1x1024, shapeCast S1x1024 (W (Proc.devRef .tc main_arg2) : FVec Ideal S1024 .f32) shapeCasts_S1024_S1x1024⟩,
         ⟨S1x1024, shapeCast S1x1024 (W (Proc.devRef .tc main_arg4) : FVec Ideal S1024 .f32) shapeCasts_S1024_S1x1024⟩,
         ⟨S1x1024, shapeCast S1x1024 (W (Proc.devRef .tc main_arg6) : FVec Ideal S1024 .f32) shapeCasts_S1024_S1x1024⟩]
        concatenates_S1x1024_S1x1024_S1x1024_S1x3072_d1 := by
  simp only [after_cons, after_nil]
  repeat (first | (rw [unary_result_ne]; rotate_left; decide) | (rw [reshape_result_ne]; rotate_left; decide) | (rw [nary_result_ne]; rotate_left; decide))
  rw [nary3_result]
  repeat (first
    | rw [unary_result] | rw [reshape_result]
    | (rw [unary_result_ne]; rotate_left; decide)
    | (rw [reshape_result_ne]; rotate_left; decide)
    | (rw [nary_result_ne]; rotate_left; decide))
  rfl

/-- A transposed weight with its format changed, at (e, f): the weight at (f, e). -/
theorem wT_apply (w : S1024x1024.Idx → EReal) (e f : Fin 1024) :
    (truncf (F := Ideal) .bf16 (transpose S1024x1024 [1, 0] w transposes_S1024x1024_S1024x1024_1_0) bitsLt_bf16_f32 : FVec Ideal S1024x1024 .bf16) (ix2 e f)
      = w (ix2 f e) := by
  rw [truncf_apply]
  exact transpose_apply [1, 0] w transposes_S1024x1024_S1024x1024_1_0 (ix2 e f) (ix2 f e) (fun b => match b with
    | ⟨0, _⟩ => rfl
    | ⟨1, _⟩ => rfl)

/-- A bias recast as one row, at (0, f): the bias at f. -/
theorem bRow_apply (b : S1024.Idx → EReal) (z : Fin 1) (f : Fin 1024) :
    shapeCast S1x1024 b shapeCasts_S1024_S1x1024 (ix2 z f) = b (ix1 f) :=
  shapeCast_a_1a_apply b shapeCasts_S1024_S1x1024 z f

/-- The q layer read off the staged arrays is x · Wqᵀ + bq. -/
theorem lin_q (s : Fin 4096) (f : Fin 1024) :
    linAt (StableHlo.after (hostOps0 (F := Ideal)) W (Proc.devRef .tc main_v11))
        (StableHlo.after (hostOps0 (F := Ideal)) W (Proc.devRef .tc main_v6))
        (StableHlo.after (hostOps0 (F := Ideal)) W (Proc.devRef .tc main_v10)) s ⟨f.val, by omega⟩
      = proj (mat (W (Proc.devRef .tc main_arg0))) (mat (W (Proc.devRef .tc main_arg1))) (vec (W (Proc.devRef .tc main_arg2))) s f := by
  rw [host_x, host_w, host_b]
  unfold linAt proj
  refine congrArg₂ (· + ·) (Finset.sum_congr rfl fun e _ => congrArg₂ (· * ·) rfl ?_) ?_
  · refine (Cert.LibThreeBlocks.cat3_0 _ _ _ _ e _ (by show f.val < 1024; omega)).trans ?_
    exact wT_apply _ e f
  · refine (Cert.LibThreeBlocks.cat3_0 _ _ _ _ (0 : Fin 1) _ (by show f.val < 1024; omega)).trans ?_
    exact bRow_apply _ 0 f

/-- The k layer read off the staged arrays is x · Wkᵀ + bk. -/
theorem lin_k (s : Fin 4096) (f : Fin 1024) :
    linAt (StableHlo.after (hostOps0 (F := Ideal)) W (Proc.devRef .tc main_v11))
        (StableHlo.after (hostOps0 (F := Ideal)) W (Proc.devRef .tc main_v6))
        (StableHlo.after (hostOps0 (F := Ideal)) W (Proc.devRef .tc main_v10)) s ⟨1024 + f.val, by omega⟩
      = proj (mat (W (Proc.devRef .tc main_arg0))) (mat (W (Proc.devRef .tc main_arg3))) (vec (W (Proc.devRef .tc main_arg4))) s f := by
  rw [host_x, host_w, host_b]
  unfold linAt proj
  have hf : (1024 + f.val) - 1024 = f.val := by omega
  refine congrArg₂ (· + ·) (Finset.sum_congr rfl fun e _ => congrArg₂ (· * ·) rfl ?_) ?_
  · refine (Cert.LibThreeBlocks.cat3_1 _ _ _ _ e _ (by show 1024 ≤ 1024 + f.val; omega) (by show 1024 + f.val - 1024 < 1024; omega)).trans ?_
    refine (congrArg _ (congrArg (ix2 e) (Fin.ext hf))).trans (wT_apply _ e f)
  · refine (Cert.LibThreeBlocks.cat3_1 _ _ _ _ (0 : Fin 1) _ (by show 1024 ≤ 1024 + f.val; omega) (by show 1024 + f.val - 1024 < 1024; omega)).trans ?_
    refine (congrArg _ (congrArg (ix2 (0 : Fin 1)) (Fin.ext hf))).trans (bRow_apply _ 0 f)

/-- The v layer read off the staged arrays is x · Wvᵀ + bv. -/
theorem lin_v (s : Fin 4096) (f : Fin 1024) :
    linAt (StableHlo.after (hostOps0 (F := Ideal)) W (Proc.devRef .tc main_v11))
        (StableHlo.after (hostOps0 (F := Ideal)) W (Proc.devRef .tc main_v6))
        (StableHlo.after (hostOps0 (F := Ideal)) W (Proc.devRef .tc main_v10)) s ⟨2048 + f.val, by omega⟩
      = proj (mat (W (Proc.devRef .tc main_arg0))) (mat (W (Proc.devRef .tc main_arg5))) (vec (W (Proc.devRef .tc main_arg6))) s f := by
  rw [host_x, host_w, host_b]
  unfold linAt proj
  have hf : (2048 + f.val) - (1024 + 1024) = f.val := by omega
  refine congrArg₂ (· + ·) (Finset.sum_congr rfl fun e _ => congrArg₂ (· * ·) rfl ?_) ?_
  · refine (Cert.LibThreeBlocks.cat3_2 _ _ _ _ e _ (by show 1024 + 1024 ≤ 2048 + f.val; omega) (by show 2048 + f.val - (1024 + 1024) < 1024; omega)).trans ?_
    refine (congrArg _ (congrArg (ix2 e) (Fin.ext hf))).trans (wT_apply _ e f)
  · refine (Cert.LibThreeBlocks.cat3_2 _ _ _ _ (0 : Fin 1) _ (by show 1024 + 1024 ≤ 2048 + f.val; omega) (by show 2048 + f.val - (1024 + 1024) < 1024; omega)).trans ?_
    refine (congrArg _ (congrArg (ix2 (0 : Fin 1)) (Fin.ext hf))).trans (bRow_apply _ 0 f)

end Cert.KernelIdeal.HostValue

end
-- ==== Proof.RefValue.lean ====
/-
  The reference read at coordinates: its result at (s, f) is the second arrangement of Cert.AttnLaws — the softmax over the
  features of the mixture of the scores divided by sqrt 4096 — of the three linear layers of x.

  Every operation of the reference is read at an index by the generated one-operation lemmas; written here are the index
  equations that put those readings at coordinates, the row maximum (the one operation not read there) as the running
  maximum from minus infinity, and the chain.
-/
import proofs.«120050_j80977313399765_2_alg».proof.Proof.Gen.ReferenceIdeal.Read
import proofs.«120050_j80977313399765_2_alg».proof.Proof.AttnLaws
import proofs.«120050_j80977313399765_2_alg».proof.Proof.LibRowMax
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.AttnLaws
open Idealize.ShloMosaic Idealize.ShloMosaic.ValueIdx

variable (x0 : (⟨S4096x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- q = x · Wqᵀ + bq at (s, f). -/
theorem q_apply (s : Fin 4096) (f : Fin 1024) :
    val_main_v4 (F := Ideal) x0 x1 x2 (ix2 s f) = proj (mat x0) (mat x1) (vec x2) s f := by
  rw [val_main_v4_apply, val_main_v1_apply, val_main_v3_apply, val_main_v2_apply]
  refine congrArg₂ (· + ·) (Finset.sum_congr rfl fun e _ => ?_) ?_
  · rw [val_main_v0_apply]
    refine congrArg₂ (· * ·) (congrArg x0 ?_) (congrArg x1 ?_)
    · funext a; match a with | ⟨0, _⟩ => rfl | ⟨1, _⟩ => rfl
    · funext a; match a with | ⟨0, _⟩ => rfl | ⟨1, _⟩ => rfl
  · refine congrArg x2 ?_
    funext a; match a with | ⟨0, _⟩ => rfl

/-- k = x · Wkᵀ + bk at (s, f). -/
theorem k_apply (s : Fin 4096) (f : Fin 1024) :
    val_main_v9 (F := Ideal) x0 x3 x4 (ix2 s f) = proj (mat x0) (mat x3) (vec x4) s f := by
  rw [val_main_v9_apply, val_main_v6_apply, val_main_v8_apply, val_main_v7_apply]
  refine congrArg₂ (· + ·) (Finset.sum_congr rfl fun e _ => ?_) ?_
  · rw [val_main_v5_apply]
    refine congrArg₂ (· * ·) (congrArg x0 ?_) (congrArg x3 ?_)
    · funext a; match a with | ⟨0, _⟩ => rfl | ⟨1, _⟩ => rfl
    · funext a; match a with | ⟨0, _⟩ => rfl | ⟨1, _⟩ => rfl
  · refine congrArg x4 ?_
    funext a; match a with | ⟨0, _⟩ => rfl

/-- v = x · Wvᵀ + bv at (s, f). -/
theorem v_apply (s : Fin 4096) (f : Fin 1024) :
    val_main_v14 (F := Ideal) x0 x5 x6 (ix2 s f) = proj (mat x0) (mat x5) (vec x6) s f := by
  rw [val_main_v14_apply, val_main_v11_apply, val_main_v13_apply, val_main_v12_apply]
  refine congrArg₂ (· + ·) (Finset.sum_congr rfl fun e _ => ?_) ?_
  · rw [val_main_v10_apply]
    refine congrArg₂ (· * ·) (congrArg x0 ?_) (congrArg x5 ?_)
    · funext a; match a with | ⟨0, _⟩ => rfl | ⟨1, _⟩ => rfl
    · funext a; match a with | ⟨0, _⟩ => rfl | ⟨1, _⟩ => rfl
  · refine congrArg x6 ?_
    funext a; match a with | ⟨0, _⟩ => rfl

/-- The scores divided by the square root of the pattern of 4096, at (s, j). -/
theorem scaled_score_apply (s j : Fin 4096) :
    val_main_v19 (F := Ideal) x0 x1 x2 x3 x4 (ix2 s j)
      = Ideal.div (score (proj (mat x0) (mat x1) (vec x2)) (proj (mat x0) (mat x3) (vec x4)) s j)
          (Ideal.sqrt (Ideal.ofBits .f32 0x45800000#32)) := by
  rw [val_main_v19_apply, val_main_v17_apply, val_main_v18_apply]
  show Ideal.div _ (Ideal.sqrt (Ideal.ofBits .f32 0x45800000#32)) = _
  refine congrArg (Ideal.div · _) (Finset.sum_congr rfl fun e _ => ?_)
  rw [val_main_v16_apply]
  refine congrArg₂ (· * ·) ?_ ?_
  · refine (congrArg (val_main_v4 (F := Ideal) x0 x1 x2) ?_).trans (q_apply x0 x1 x2 s e)
    funext a; match a with | ⟨0, _⟩ => rfl | ⟨1, _⟩ => rfl
  · refine (congrArg (val_main_v9 (F := Ideal) x0 x3 x4) ?_).trans (k_apply x0 x3 x4 j e)
    funext a; match a with | ⟨0, _⟩ => rfl | ⟨1, _⟩ => rfl

/-- The mixture before the softmax, at (s, f). -/
theorem mix_apply (s : Fin 4096) (f : Fin 1024) :
    val_main_v20 (F := Ideal) x0 x1 x2 x3 x4 x5 x6 (ix2 s f)
      = mixDiv (Ideal.sqrt (Ideal.ofBits .f32 0x45800000#32)) (proj (mat x0) (mat x1) (vec x2))
          (proj (mat x0) (mat x3) (vec x4)) (proj (mat x0) (mat x5) (vec x6)) s f := by
  rw [val_main_v20_apply]
  refine Finset.sum_congr rfl fun j _ => congrArg₂ (· * ·) ?_ ?_
  · refine (congrArg (val_main_v19 (F := Ideal) x0 x1 x2 x3 x4) ?_).trans (scaled_score_apply x0 x1 x2 x3 x4 s j)
    funext a; match a with | ⟨0, _⟩ => rfl | ⟨1, _⟩ => rfl
  · refine (congrArg (val_main_v14 (F := Ideal) x0 x5 x6) ?_).trans (v_apply x0 x5 x6 j f)
    funext a; match a with | ⟨0, _⟩ => rfl | ⟨1, _⟩ => rfl

/-- The row the softmax is taken of. -/
abbrev mixRow (s : Fin 4096) : Fin 1024 → EReal :=
  mixDiv (Ideal.sqrt (Ideal.ofBits .f32 0x45800000#32)) (proj (mat x0) (mat x1) (vec x2))
    (proj (mat x0) (mat x3) (vec x4)) (proj (mat x0) (mat x5) (vec x6)) s

/-- The row maximum the reference subtracts: the host's maximum from minus infinity, once more against minus infinity. -/
theorem max_apply (s : Fin 4096) :
    val_main_v23 (F := Ideal) x0 x1 x2 x3 x4 x5 x6 (ix1 s) = rowMax (mixRow x0 x1 x2 x3 x4 x5 x6 s) := by
  rw [val_main_v23_apply, val_main_v22_apply]
  have h21 : val_main_v21 (F := Ideal) x0 x1 x2 x3 x4 x5 x6 (ix1 s) = rowMax (mixRow x0 x1 x2 x3 x4 x5 x6 s) := by
    unfold val_main_v21
    refine (Cert.LibRowMax.hostmax_last2 _ _ _ (by decide) _ s).trans ?_
    unfold rowMax
    refine congrArg (Finset.univ.fold max _) (funext fun f => mix_apply x0 x1 x2 x3 x4 x5 x6 s f)
  rw [h21]
  exact Cert.LibRowMax.max_fold _ _ _

/-- The exponentials, at (s, f). -/
theorem exp_apply (s : Fin 4096) (f : Fin 1024) :
    val_main_v27 (F := Ideal) x0 x1 x2 x3 x4 x5 x6 (ix2 s f)
      = Ideal.exp (mixRow x0 x1 x2 x3 x4 x5 x6 s f - rowMax (mixRow x0 x1 x2 x3 x4 x5 x6 s)) := by
  rw [val_main_v27_apply, val_main_v26_apply, val_main_v25_apply, val_main_v24_apply]
  show Ideal.exp (_ - _) = _
  refine congrArg Ideal.exp (congrArg₂ (· - ·) (mix_apply x0 x1 x2 x3 x4 x5 x6 s f) ?_)
  refine (congrArg (val_main_v23 (F := Ideal) x0 x1 x2 x3 x4 x5 x6) ?_).trans (max_apply x0 x1 x2 x3 x4 x5 x6 s)
  funext a; match a with | ⟨0, _⟩ => rfl

/-- The reference's result at (s, f). -/
theorem result_apply (s : Fin 4096) (f : Fin 1024) :
    val_main_v31 (F := Ideal) x0 x1 x2 x3 x4 x5 x6 (ix2 s f)
      = outDiv (proj (mat x0) (mat x1) (vec x2)) (proj (mat x0) (mat x3) (vec x4)) (proj (mat x0) (mat x5) (vec x6)) s f := by
  rw [val_main_v31_apply, val_main_v30_apply, val_main_v29_apply, val_main_v28_apply]
  show Ideal.div _ _ = _
  unfold outDiv rowSoftmax
  refine congrArg₂ Ideal.div (exp_apply x0 x1 x2 x3 x4 x5 x6 s f) ?_
  rw [show val_main_cst_2 (F := Ideal) (Shape.Idx.first h_S_) = 0 from Ideal.ofBits_zero_f32, zero_add]
  refine Finset.sum_congr rfl fun f' _ => ?_
  refine (congrArg (val_main_v27 (F := Ideal) x0 x1 x2 x3 x4 x5 x6) ?_).trans (exp_apply x0 x1 x2 x3 x4 x5 x6 s f')
  funext a; match a with | ⟨0, _⟩ => rfl | ⟨1, _⟩ => rfl

end Cert.ReferenceIdeal.RefValue

end
-- ==== Proof.FiniteInputs.lean ====
import proofs.«120050_j80977313399765_2_alg».proof.Pre_finite_inputs
import proofs.«120050_j80977313399765_2_alg».proof.Proof.Gen.Pre_finite_inputs
import proofs.«120050_j80977313399765_2_alg».proof.Proof.AttnLaws
import proofs.«120050_j80977313399765_2_alg».proof.Proof.LibRankFactor
import Idealize.ShloMosaic.Lib.ReduceAll
import Idealize.ShloMosaic.Lib.Affine
import Idealize.ShloMosaic.Lib.ValueIdx
import Idealize.ShloMosaic.PureOps.Ideal

/-!
# The precondition decoded: every entry of every argument array is a real number

The precondition is the conjunction, over the seven argument arrays, of "every entry's absolute value compares below
the pattern of +infinity": per array a comparison of `|x|` with the splat of `0x7F800000`, reduced by `and` over all
axes to one bit, and the seven bits joined by `and`. On the extended reals the pattern denotes `⊤`, the absolute
value is `max x (-x)`, and `max x (-x) < ⊤` says that `x` is neither `⊤` nor `⊥`. So from the precondition's one
bit being 1: each of the seven bits is 1, each reduction being 1 gives the comparison at every index, and the
comparison at an index gives that entry finite.
-/

noncomputable section

namespace Cert.Pre_finite_inputs.Hand

open Cert.Pre_finite_inputs Cert.Pre_finite_inputs.Gen
open Idealize.ShloMosaic

/-- A shape of rank 0 has one index. -/
instance : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value compares below the pattern of `+∞` is neither infinity. -/
theorem fin_of_cmp (x : EReal) (h : Ideal.cmp .olt (max x (-x)) (Ideal.ofBits .f32 0x7F800000#32) = 1#1) :
    Cert.AttnLaws.Fin' x := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  exact RankFactor.finite_of_abs_lt_top hlt

/-- One conjunct of the precondition, at any shape: when the `and` over all axes of "`|a i|` compares below `+∞`" is 1,
    every entry of `a` is finite. -/
theorem all_fin {s : Shape} {axes : List (Fin s.rank)} (a : FVec Ideal s .f32)
    (bc : S_.BroadcastsInDim s (![] : Fin 0 → Fin s.rank)) (hr : s.ReducesTo axes S_) (hu : 0 < S_.numel)
    (e : Host.reduce IntOp.andi (cmpf .olt (Host.absf a) (broadcastInDim s ![] bc (constant S_ .f32 0x7F800000#32)))
      (constantI S_ 1 1#1) hr hu ValueIdx.ix0 = 1#1) :
    ∀ i, Cert.AttnLaws.Fin' (a i) := fun i =>
  fin_of_cmp (a i) (Host.reduce_andi_all _ _ hr hu ValueIdx.ix0 e i)

/-- THE PRECONDITION DECODED: every entry of every argument array is a real number. -/
theorem finite_of_pre (a0 : FVec Ideal S4096x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (h : Cert.Pre_finite_inputs.fn (F := Ideal) a0 a1 a2 a3 a4 a5 a6 = (fun _ => 1#1)) :
    (∀ i, Cert.AttnLaws.Fin' (a0 i)) ∧ (∀ i, Cert.AttnLaws.Fin' (a1 i)) ∧ (∀ i, Cert.AttnLaws.Fin' (a2 i))
      ∧ (∀ i, Cert.AttnLaws.Fin' (a3 i)) ∧ (∀ i, Cert.AttnLaws.Fin' (a4 i)) ∧ (∀ i, Cert.AttnLaws.Fin' (a5 i))
      ∧ (∀ i, Cert.AttnLaws.Fin' (a6 i)) := by
  have e := congrFun h ValueIdx.ix0
  dsimp only [fn, fn_part1] at e
  simp only [Idealize.ShloMosaic.andi, IntOp.andi_eq_one] at e
  obtain ⟨⟨⟨⟨⟨⟨h0, h1⟩, h2⟩, h3⟩, h4⟩, h5⟩, h6⟩ := e
  exact ⟨all_fin a0 _ _ _ h0, all_fin a1 _ _ _ h1, all_fin a2 _ _ _ h2, all_fin a3 _ _ _ h3, all_fin a4 _ _ _ h4,
    all_fin a5 _ _ _ h5, all_fin a6 _ _ _ h6⟩

end Cert.Pre_finite_inputs.Hand

end
-- ==== Proof.lean ====
/-
  The proof of Cert.Claim: the two kernels' program and its reference compute one function of the arguments over the
  extended reals when every input is finite, and every program runs to the end with its arguments unchanged.

  The kernels' program projects x through three linear layers (one fused product against the three transposed weights
  side by side), then, per tile of 512 query rows, adds up over four tiles of 1024 keys the products
  (q · kᵀ) · v onto a zeroed accumulator, scales the sum by 1/64 and takes the softmax of each row. The reference
  divides the scores q · kᵀ by sqrt 4096 = 64 before mixing them with v in one sum, and takes the same softmax. The two
  agree because the inputs, hence q, k, v and the scores, are finite: the factor 1/64 then distributes over the sum
  (Cert.AttnLaws.outRuns_eq_outDiv).

  The frames of the two kernel programs are the runs of their three segments — the host operations, the projection
  kernel, the attention kernel with its accumulator carried between grid points —; the reference's frame is its run
  with the result dropped. The idealized program is the printed one read at the extended reals: nothing was rewritten.
-/
import proofs.«120050_j80977313399765_2_alg».proof.Defs
import proofs.«120050_j80977313399765_2_alg».proof.Proof.Gen.Kernel
import proofs.«120050_j80977313399765_2_alg».proof.Proof.Gen.KernelIdeal
import proofs.«120050_j80977313399765_2_alg».proof.Proof.Gen.ReferenceIdeal
import proofs.«120050_j80977313399765_2_alg».proof.Proof.Gen.Pre_finite_inputs
import proofs.«120050_j80977313399765_2_alg».proof.Proof.Gen.ReferenceIdeal.Run
import proofs.«120050_j80977313399765_2_alg».proof.Proof.Gen.ReferenceIdeal.Read
import proofs.«120050_j80977313399765_2_alg».proof.Proof.BitsRun
import proofs.«120050_j80977313399765_2_alg».proof.Proof.IdealRun
import proofs.«120050_j80977313399765_2_alg».proof.Proof.QkvArrays
import proofs.«120050_j80977313399765_2_alg».proof.Proof.AttnArrays
import proofs.«120050_j80977313399765_2_alg».proof.Proof.HostPrefix
import proofs.«120050_j80977313399765_2_alg».proof.Proof.RefValue
import proofs.«120050_j80977313399765_2_alg».proof.Proof.FiniteInputs
import proofs.«120050_j80977313399765_2_alg».proof.Proof.AttnLaws
import Idealize.ShloMosaic.Adequacy
import Idealize.ShloMosaic.Init

noncomputable section

namespace Cert.Proof

open Idealize.ShloMosaic Idealize.ShloMosaic.TcCoe Idealize.SL.Sem Idealize.ShloMosaic.ValueIdx Cert.AttnLaws

/-! ## The kernels' result as a function of the arguments -/

section KernelValue

open Cert.KernelIdeal Cert.KernelIdeal.Gen Cert.KernelIdeal.Hand

variable (m : (ℓ : Loc nD τ sig) → Buf (Elt Ideal) ℓ) (ρ : Dev nD → PrngReg)

/-- The three linear layers of the arguments on core c. -/
abbrev qOf (c : Dev nD) : Fin 4096 → Fin 1024 → EReal :=
  proj (mat (m ((c.tc : Thread nD τ).loc main_arg0))) (mat (m ((c.tc : Thread nD τ).loc main_arg1))) (vec (m ((c.tc : Thread nD τ).loc main_arg2)))
abbrev kOf (c : Dev nD) : Fin 4096 → Fin 1024 → EReal :=
  proj (mat (m ((c.tc : Thread nD τ).loc main_arg0))) (mat (m ((c.tc : Thread nD τ).loc main_arg3))) (vec (m ((c.tc : Thread nD τ).loc main_arg4)))
abbrev vOf (c : Dev nD) : Fin 4096 → Fin 1024 → EReal :=
  proj (mat (m ((c.tc : Thread nD τ).loc main_arg0))) (mat (m ((c.tc : Thread nD τ).loc main_arg5))) (vec (m ((c.tc : Thread nD τ).loc main_arg6)))

/-- What the projection kernel leaves in its three result arrays, as the attention kernel finds them. -/
theorem q_array (c : Dev nD) (s : Fin 4096) (e : Fin 1024) : V2 m ρ c main_v12_0 (ix2 s e) = qOf m c s e := by
  have h3 := (V2_main_v12_0 m ρ c).trans (Cert.KernelIdeal.QkvValue.final0_3 (V1 m ρ) c)
  refine (congrFun h3 (ix2 s e)).trans ?_
  have hl := Cert.KernelIdeal.HostValue.lin_q (W0 m ρ c) s e
  have eA : W0 m ρ c (Proc.devRef .tc main_arg0) = m ((c.tc : Thread nD τ).loc main_arg0) := rfl
  have eA1 : W0 m ρ c (Proc.devRef .tc main_arg1) = m ((c.tc : Thread nD τ).loc main_arg1) := rfl
  have eA2 : W0 m ρ c (Proc.devRef .tc main_arg2) = m ((c.tc : Thread nD τ).loc main_arg2) := rfl
  have eB : V1 m ρ c main_v11 = StableHlo.after (hostOps0 (F := Ideal)) (W0 m ρ c) (Proc.devRef .tc main_v11) := rfl
  have eB1 : V1 m ρ c main_v6 = StableHlo.after (hostOps0 (F := Ideal)) (W0 m ρ c) (Proc.devRef .tc main_v6) := rfl
  have eB2 : V1 m ρ c main_v10 = StableHlo.after (hostOps0 (F := Ideal)) (W0 m ρ c) (Proc.devRef .tc main_v10) := rfl
  rw [eA, eA1, eA2] at hl
  rw [eB, eB1, eB2]
  exact hl
theorem k_array (c : Dev nD) (s : Fin 4096) (e : Fin 1024) : V2 m ρ c main_v12_1 (ix2 s e) = kOf m c s e := by
  have h3 := (V2_main_v12_1 m ρ c).trans (Cert.KernelIdeal.QkvValue.final0_4 (V1 m ρ) c)
  refine (congrFun h3 (ix2 s e)).trans ?_
  have hl := Cert.KernelIdeal.HostValue.lin_k (W0 m ρ c) s e
  have eA : W0 m ρ c (Proc.devRef .tc main_arg0) = m ((c.tc : Thread nD τ).loc main_arg0) := rfl
  have eA1 : W0 m ρ c (Proc.devRef .tc main_arg3) = m ((c.tc : Thread nD τ).loc main_arg3) := rfl
  have eA2 : W0 m ρ c (Proc.devRef .tc main_arg4) = m ((c.tc : Thread nD τ).loc main_arg4) := rfl
  have eB : V1 m ρ c main_v11 = StableHlo.after (hostOps0 (F := Ideal)) (W0 m ρ c) (Proc.devRef .tc main_v11) := rfl
  have eB1 : V1 m ρ c main_v6 = StableHlo.after (hostOps0 (F := Ideal)) (W0 m ρ c) (Proc.devRef .tc main_v6) := rfl
  have eB2 : V1 m ρ c main_v10 = StableHlo.after (hostOps0 (F := Ideal)) (W0 m ρ c) (Proc.devRef .tc main_v10) := rfl
  rw [eA, eA1, eA2] at hl
  rw [eB, eB1, eB2]
  exact hl
theorem v_array (c : Dev nD) (s : Fin 4096) (e : Fin 1024) : V2 m ρ c main_v12_2 (ix2 s e) = vOf m c s e := by
  have h3 := (V2_main_v12_2 m ρ c).trans (Cert.KernelIdeal.QkvValue.final0_5 (V1 m ρ) c)
  refine (congrFun h3 (ix2 s e)).trans ?_
  have hl := Cert.KernelIdeal.HostValue.lin_v (W0 m ρ c) s e
  have eA : W0 m ρ c (Proc.devRef .tc main_arg0) = m ((c.tc : Thread nD τ).loc main_arg0) := rfl
  have eA1 : W0 m ρ c (Proc.devRef .tc main_arg5) = m ((c.tc : Thread nD τ).loc main_arg5) := rfl
  have eA2 : W0 m ρ c (Proc.devRef .tc main_arg6) = m ((c.tc : Thread nD τ).loc main_arg6) := rfl
  have eB : V1 m ρ c main_v11 = StableHlo.after (hostOps0 (F := Ideal)) (W0 m ρ c) (Proc.devRef .tc main_v11) := rfl
  have eB1 : V1 m ρ c main_v6 = StableHlo.after (hostOps0 (F := Ideal)) (W0 m ρ c) (Proc.devRef .tc main_v6) := rfl
  have eB2 : V1 m ρ c main_v10 = StableHlo.after (hostOps0 (F := Ideal)) (W0 m ρ c) (Proc.devRef .tc main_v10) := rfl
  rw [eA, eA1, eA2] at hl
  rw [eB, eB1, eB2]
  exact hl

/-- The result array after the run: the first arrangement of the three layers, index by index. -/
theorem kernel_result (c : Dev nD) :
    (dat1 (V2 m ρ) c).arrAt 3 cfg1.N
      = fun i => outRuns (qOf m c) (kOf m c) (vOf m c) ⟨(i 0).val, (i 0).isLt⟩ ⟨(i 1).val, (i 1).isLt⟩ := by
  have eq : (fun s e => V2 m ρ c main_v12_0 (ix2 s e)) = qOf m c := funext fun s => funext fun e => q_array m ρ c s e
  have ek : (fun s e => V2 m ρ c main_v12_1 (ix2 s e)) = kOf m c := funext fun s => funext fun e => k_array m ρ c s e
  have ev : (fun s e => V2 m ρ c main_v12_2 (ix2 s e)) = vOf m c := funext fun s => funext fun e => v_array m ρ c s e
  refine (Cert.KernelIdeal.AttnValue.final1_3 (V2 m ρ) c).trans ?_
  rw [eq, ek, ev]

end KernelValue

/-! ## The claims -/

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two idealized programs end with equal results: the kernels' at the accumulated mixture scaled by 1/64 and
    softmaxed, the reference's at the mixture of the scores divided by 64 and softmaxed, of finite q, k, v. -/
theorem algebraic : Cert.algebraic_KernelIdeal_ReferenceIdeal := by
  intro m ρ m' ρ' hpre hagree
  refine ⟨fun c => fun i => outRuns (qOf m c) (kOf m c) (vOf m c) ⟨(i 0).val, (i 0).isLt⟩ ⟨(i 1).val, (i 1).isLt⟩, ?_, ?_⟩
  · exact (θ_run Cert.KernelIdeal.defs _ _).mono (fun r h c => ⟨(h c).1.trans (kernel_result m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := Cert.Pre_finite_inputs.Hand.finite_of_pre _ _ _ _ _ _ _ (hpre c)
    rw [Cert.ReferenceIdeal.Read.val_main_v31_eq, (hagree c).1, (hagree c).2.1, (hagree c).2.2.1, (hagree c).2.2.2.1,
      (hagree c).2.2.2.2.1, (hagree c).2.2.2.2.2.1, (hagree c).2.2.2.2.2.2]
    funext i
    obtain ⟨s, f, rfl⟩ : ∃ (s : Fin 4096) (f : Fin 1024), i = ix2 s f := ⟨i 0, i 1, eq_ix2 i⟩
    rw [Cert.ReferenceIdeal.RefValue.result_apply]
    exact (outRuns_eq_outDiv _ _ _
      (proj_fin _ _ _ (fun s e => h0 _) (fun f e => h1 _) (fun f => h2 _))
      (proj_fin _ _ _ (fun s e => h0 _) (fun f e => h3 _) (fun f => h4 _))
      (proj_fin _ _ _ (fun s e => h0 _) (fun f e => h5 _) (fun f => h6 _)) s f).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
